-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v185)) (v1 : (c : Dev Cert.KernelIdeal.nD) → Buf (Elt Ideal) ((c.tc : Thread Cert.KernelIdeal.nD Cert.KernelIdeal.τ).loc Cert.KernelIdeal.main_v191)) (v2 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_v191) = v1 c
          ∧ r.2.mem ((c.tc : Thread Cert.KernelIdeal.nD Cert.KernelIdeal.τ).loc Cert.KernelIdeal.main_v197) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v189) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S4x64x64 : Shape := ⟨3, ![4, 64, 64]⟩
abbrev S4x64 : Shape := ⟨2, ![4, 64]⟩
abbrev S2000000 : Shape := ⟨1, ![2000000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S4x64 .f32) (main_arg5 : FVec F S4x64x64 .f32) (main_arg6 : FVec F S4x64 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64x64 .f32 := Host.absf main_arg5
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg6
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  main_v33

def fn {F : FTy → Type} [FloatOps F] (main_arg0 : FVec F S200000x64 .f32) (main_arg1 : FVec F S100000x64 .f32) (main_arg2 : FVec F S100000x64 .f32) (main_arg3 : FVec F S4x64x64 .f32) (main_arg4 : FVec F S4x64 .f32) (main_arg5 : FVec F S4x64x64 .f32) (main_arg6 : FVec F S4x64 .f32) (main_arg7 : IVec S2000000 32) (main_arg8 : IVec S2000000 32) (main_arg9 : IVec S2000000 32) (main_arg10 : IVec S2000000 32) (main_arg11 : IVec S2000000 32) (main_arg12 : IVec S2000000 32) (main_arg13 : IVec S2000000 32) (main_arg14 : IVec S2000000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S4x64x64 .f32 := Host.absf main_arg3
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg4 main_arg5 main_arg6 main_v13 main_v16
-- ==== Kernel.lean ====
abbrev S200000x64 : Shape := ⟨2, ![200000, 64]⟩
abbrev S100000x64 : Shape := ⟨2, ![100000, 64]⟩
abbrev S4x64x64 : Shape := ⟨3, ![4, 64, 64]⟩
abbrev S4x64 : Shape := ⟨2, ![4, 64]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S100000 : Shape := ⟨1, ![100000]⟩
abbrev S100000x1 : Shape := ⟨2, ![100000, 1]⟩
abbrev S200000 : Shape := ⟨1, ![200000]⟩
abbrev S200000x1 : Shape := ⟨2, ![200000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩

abbrev nBuf : Space → Nat
  | .hbm => 261
  | .vmem => 44
  | .smem => 0
  | _ => 0

abbrev hbmTy0_0 (i : Nat) : BufTy := match i % 128 with
  | 0 => ⟨S200000x64, .f32⟩
  | 1 => ⟨S100000x64, .f32⟩
  | 2 => ⟨S100000x64, .f32⟩
  | 3 => ⟨S4x64x64, .f32⟩
  | 4 => ⟨S4x64, .f32⟩
  | 5 => ⟨S4x64x64, .f32⟩
  | 6 => ⟨S4x64, .f32⟩
  | 7 => ⟨S2000000, .i32⟩
  | 8 => ⟨S2000000, .i32⟩
  | 9 => ⟨S2000000, .i32⟩
  | 10 => ⟨S2000000, .i32⟩
  | 11 => ⟨S2000000, .i32⟩
  | 12 => ⟨S2000000, .i32⟩
  | 13 => ⟨S2000000, .i32⟩
  | 14 => ⟨S2000000, .i32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x64, .f32⟩
  | 24 => ⟨S_, .f32⟩
  | 25 => ⟨S100000x64, .f32⟩
  | 26 => ⟨S2000000x1, .i32⟩
  | 27 => ⟨S100000x64, .f32⟩
  | 28 => ⟨S_, .f32⟩
  | 29 => ⟨S2000000, .f32⟩
  | 30 => ⟨S_, .f32⟩
  | 31 => ⟨S100000, .f32⟩
  | 32 => ⟨S2000000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000x64, .f32⟩
  | 49 => ⟨S_, .f32⟩
  | 50 => ⟨S200000x64, .f32⟩
  | 51 => ⟨S2000000x1, .i32⟩
  | 52 => ⟨S200000x64, .f32⟩
  | 53 => ⟨S_, .f32⟩
  | 54 => ⟨S2000000, .f32⟩
  | 55 => ⟨S_, .f32⟩
  | 56 => ⟨S200000, .f32⟩
  | 57 => ⟨S2000000x1, .i32⟩
  | 58 => ⟨S200000, .f32⟩
  | 59 => ⟨S_, .f32⟩
  | 60 => ⟨S200000, .f32⟩
  | 61 => ⟨S200000, .f32⟩
  | 62 => ⟨S200000x1, .f32⟩
  | 63 => ⟨S200000x64, .f32⟩
  | 64 => ⟨S200000x64, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x64, .f32⟩
  | 74 => ⟨S_, .f32⟩
  | 75 => ⟨S100000x64, .f32⟩
  | 76 => ⟨S2000000x1, .i32⟩
  | 77 => ⟨S100000x64, .f32⟩
  | 78 => ⟨S_, .f32⟩
  | 79 => ⟨S2000000, .f32⟩
  | 80 => ⟨S_, .f32⟩
  | 81 => ⟨S100000, .f32⟩
  | 82 => ⟨S2000000x1, .i32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x64, .f32⟩
  | 89 => ⟨S100000x64, .f32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2000000x64, .f32⟩
  | 99 => ⟨S_, .f32⟩
  | 100 => ⟨S200000x64, .f32⟩
  | 101 => ⟨S2000000x1, .i32⟩
  | 102 => ⟨S200000x64, .f32⟩
  | 103 => ⟨S_, .f32⟩
  | 104 => ⟨S2000000, .f32⟩
  | 105 => ⟨S_, .f32⟩
  | 106 => ⟨S200000, .f32⟩
  | 107 => ⟨S2000000x1, .i32⟩
  | 108 => ⟨S200000, .f32⟩
  | 109 => ⟨S_, .f32⟩
  | 110 => ⟨S200000, .f32⟩
  | 111 => ⟨S200000, .f32⟩
  | 112 => ⟨S200000x1, .f32⟩
  | 113 => ⟨S200000x64, .f32⟩
  | 114 => ⟨S200000x64, .f32⟩
  | 115 => ⟨S1x64x64, .f32⟩
  | 116 => ⟨S64x64, .f32⟩
  | 117 => ⟨S1x64, .f32⟩
  | 118 => ⟨S64, .f32⟩
  | 119 => ⟨S1x64x64, .f32⟩
  | 120 => ⟨S64x64, .f32⟩
  | 121 => ⟨S1x64, .f32⟩
  | 122 => ⟨S64, .f32⟩
  | 123 => ⟨S1x64, .f32⟩
  | 124 => ⟨S1x64, .f32⟩
  | 125 => ⟨S200000x64, .f32⟩
  | 126 => ⟨S1x64x64, .f32⟩
  | 127 => ⟨S64x64, .f32⟩
  | _ => ⟨S200000x64, .f32⟩

abbrev hbmTy0_1 (i : Nat) : BufTy := match i % 128 with
  | 0 => ⟨S1x64, .f32⟩
  | 1 => ⟨S64, .f32⟩
  | 2 => ⟨S1x64, .f32⟩
  | 3 => ⟨S100000x64, .f32⟩
  | 4 => ⟨S1x64x64, .f32⟩
  | 5 => ⟨S64x64, .f32⟩
  | 6 => ⟨S1x64, .f32⟩
  | 7 => ⟨S64, .f32⟩
  | 8 => ⟨S1x64, .f32⟩
  | 9 => ⟨S100000x64, .f32⟩
  | 10 => ⟨S_, .i32⟩
  | 11 => ⟨S2000000, .i32⟩
  | 12 => ⟨S2000000, .i1⟩
  | 13 => ⟨S_, .i32⟩
  | 14 => ⟨S2000000, .i32⟩
  | 15 => ⟨S2000000, .i32⟩
  | 16 => ⟨S2000000, .i32⟩
  | 17 => ⟨S2000000x1, .i32⟩
  | 18 => ⟨S2000000x64, .f32⟩
  | 19 => ⟨S_, .f32⟩
  | 20 => ⟨S100000x64, .f32⟩
  | 21 => ⟨S2000000x1, .i32⟩
  | 22 => ⟨S100000x64, .f32⟩
  | 23 => ⟨S_, .f32⟩
  | 24 => ⟨S2000000, .f32⟩
  | 25 => ⟨S_, .f32⟩
  | 26 => ⟨S100000, .f32⟩
  | 27 => ⟨S2000000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x64, .f32⟩
  | 34 => ⟨S100000x64, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000x64, .f32⟩
  | 44 => ⟨S_, .f32⟩
  | 45 => ⟨S200000x64, .f32⟩
  | 46 => ⟨S2000000x1, .i32⟩
  | 47 => ⟨S200000x64, .f32⟩
  | 48 => ⟨S_, .f32⟩
  | 49 => ⟨S2000000, .f32⟩
  | 50 => ⟨S_, .f32⟩
  | 51 => ⟨S200000, .f32⟩
  | 52 => ⟨S2000000x1, .i32⟩
  | 53 => ⟨S200000, .f32⟩
  | 54 => ⟨S_, .f32⟩
  | 55 => ⟨S200000, .f32⟩
  | 56 => ⟨S200000, .f32⟩
  | 57 => ⟨S200000x1, .f32⟩
  | 58 => ⟨S200000x64, .f32⟩
  | 59 => ⟨S200000x64, .f32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S2000000x64, .f32⟩
  | 69 => ⟨S_, .f32⟩
  | 70 => ⟨S100000x64, .f32⟩
  | 71 => ⟨S2000000x1, .i32⟩
  | 72 => ⟨S100000x64, .f32⟩
  | 73 => ⟨S_, .f32⟩
  | 74 => ⟨S2000000, .f32⟩
  | 75 => ⟨S_, .f32⟩
  | 76 => ⟨S100000, .f32⟩
  | 77 => ⟨S2000000x1, .i32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x64, .f32⟩
  | 84 => ⟨S100000x64, .f32⟩
  | 85 => ⟨S_, .i32⟩
  | 86 => ⟨S2000000, .i32⟩
  | 87 => ⟨S2000000, .i1⟩
  | 88 => ⟨S_, .i32⟩
  | 89 => ⟨S2000000, .i32⟩
  | 90 => ⟨S2000000, .i32⟩
  | 91 => ⟨S2000000, .i32⟩
  | 92 => ⟨S2000000x1, .i32⟩
  | 93 => ⟨S2000000x64, .f32⟩
  | 94 => ⟨S_, .f32⟩
  | 95 => ⟨S200000x64, .f32⟩
  | 96 => ⟨S2000000x1, .i32⟩
  | 97 => ⟨S200000x64, .f32⟩
  | 98 => ⟨S_, .f32⟩
  | 99 => ⟨S2000000, .f32⟩
  | 100 => ⟨S_, .f32⟩
  | 101 => ⟨S200000, .f32⟩
  | 102 => ⟨S2000000x1, .i32⟩
  | 103 => ⟨S200000, .f32⟩
  | 104 => ⟨S_, .f32⟩
  | 105 => ⟨S200000, .f32⟩
  | 106 => ⟨S200000, .f32⟩
  | 107 => ⟨S200000x1, .f32⟩
  | 108 => ⟨S200000x64, .f32⟩
  | 109 => ⟨S200000x64, .f32⟩
  | 110 => ⟨S1x64x64, .f32⟩
  | 111 => ⟨S64x64, .f32⟩
  | 112 => ⟨S1x64, .f32⟩
  | 113 => ⟨S64, .f32⟩
  | 114 => ⟨S1x64x64, .f32⟩
  | 115 => ⟨S64x64, .f32⟩
  | 116 => ⟨S1x64, .f32⟩
  | 117 => ⟨S64, .f32⟩
  | 118 => ⟨S1x64, .f32⟩
  | 119 => ⟨S1x64, .f32⟩
  | 120 => ⟨S200000x64, .f32⟩
  | 121 => ⟨S1x64x64, .f32⟩
  | 122 => ⟨S64x64, .f32⟩
  | 123 => ⟨S1x64, .f32⟩
  | 124 => ⟨S64, .f32⟩
  | 125 => ⟨S1x64, .f32⟩
  | 126 => ⟨S100000x64, .f32⟩
  | 127 => ⟨S1x64x64, .f32⟩
  | _ => ⟨S200000x64, .f32⟩

abbrev hbmTy0_2 (i : Nat) : BufTy := match i % 128 with
  | 0 => ⟨S64x64, .f32⟩
  | 1 => ⟨S1x64, .f32⟩
  | 2 => ⟨S64, .f32⟩
  | 3 => ⟨S1x64, .f32⟩
  | 4 => ⟨S100000x64, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_15 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_16 : Ref sig .tc := ⟨.hbm, 90, rfl⟩
abbrev main_v57 : Ref sig .tc := ⟨.hbm, 91, rfl⟩
abbrev main_v58 : Ref sig .tc := ⟨.hbm, 92, rfl⟩
abbrev main_c_17 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_18 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_19 : Ref sig .tc := ⟨.hbm, 103, rfl⟩
abbrev main_v67 : Ref sig .tc := ⟨.hbm, 104, rfl⟩
abbrev main_cst_20 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_21 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_22 : Ref sig .tc := ⟨.hbm, 138, rfl⟩
abbrev main_v99 : Ref sig .tc := ⟨.hbm, 139, rfl⟩
abbrev main_v100 : Ref sig .tc := ⟨.hbm, 140, rfl⟩
abbrev main_c_23 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_24 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_25 : Ref sig .tc := ⟨.hbm, 151, rfl⟩
abbrev main_v109 : Ref sig .tc := ⟨.hbm, 152, rfl⟩
abbrev main_cst_26 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_27 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_28 : Ref sig .tc := ⟨.hbm, 163, rfl⟩
abbrev main_v118 : Ref sig .tc := ⟨.hbm, 164, rfl⟩
abbrev main_v119 : Ref sig .tc := ⟨.hbm, 165, rfl⟩
abbrev main_c_29 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_30 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_31 : Ref sig .tc := ⟨.hbm, 176, rfl⟩
abbrev main_v128 : Ref sig .tc := ⟨.hbm, 177, rfl⟩
abbrev main_cst_32 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_33 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_c_34 : Ref sig .tc := ⟨.hbm, 188, rfl⟩
abbrev main_v137 : Ref sig .tc := ⟨.hbm, 189, rfl⟩
abbrev main_v138 : Ref sig .tc := ⟨.hbm, 190, rfl⟩
abbrev main_c_35 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_36 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_37 : Ref sig .tc := ⟨.hbm, 201, rfl⟩
abbrev main_v147 : Ref sig .tc := ⟨.hbm, 202, rfl⟩
abbrev main_cst_38 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_39 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_c_40 : Ref sig .tc := ⟨.hbm, 213, rfl⟩
abbrev main_v156 : Ref sig .tc := ⟨.hbm, 214, rfl⟩
abbrev main_v157 : Ref sig .tc := ⟨.hbm, 215, rfl⟩
abbrev main_c_41 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_42 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_cst_43 : Ref sig .tc := ⟨.hbm, 226, rfl⟩
abbrev main_v166 : Ref sig .tc := ⟨.hbm, 227, rfl⟩
abbrev main_cst_44 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_45 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  slices_S4x64x64_S1x64x64_1_0_0 : S4x64x64.Slices ![1, 0, 0] S1x64x64
  shapeCasts_S1x64x64_S64x64 : S1x64x64.ShapeCasts S64x64
  slices_S4x64_S1x64_1_0 : S4x64.Slices ![1, 0] S1x64
  shapeCasts_S1x64_S64 : S1x64.ShapeCasts S64
  slices_S4x64x64_S1x64x64_3_0_0 : S4x64x64.Slices ![3, 0, 0] S1x64x64
  slices_S4x64_S1x64_3_0 : S4x64.Slices ![3, 0] S1x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S4x64x64_S1x64x64_0_0_0 : S4x64x64.Slices ![0, 0, 0] S1x64x64
  slices_S4x64_S1x64_0_0 : S4x64.Slices ![0, 0] S1x64
  slices_S4x64x64_S1x64x64_2_0_0 : S4x64x64.Slices ![2, 0, 0] S1x64x64
  slices_S4x64_S1x64_2_0 : S4x64.Slices ![2, 0] S1x64
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000_S2000000x1_S2000000_n_0_0_1_wf : ScatterDims.WF S200000 S2000000x1 S2000000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S200000x64.size a
  hwx0_3 : ∀ i : grid0.Coords, EltTy.bits .f32 = 32 ∨ (Rect.block (s := S200000x64) S10000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S200000x64.size a
  hwx0_6 : ∀ i : grid0.Coords, EltTy.bits .f32 = 32 ∨ (Rect.block (s := S200000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S200000x64.size a
  hwx3_3 : ∀ i : grid3.Coords, EltTy.bits .f32 = 32 ∨ (Rect.block (s := S200000x64) S10000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S200000x64.size a
  hwx3_6 : ∀ i : grid3.Coords, EltTy.bits .f32 = 32 ∨ (Rect.block (s := S200000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v37) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v84) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v75) S10000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v81) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v85) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v86) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v88) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v92) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v97) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v98) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v136) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v176) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v183) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v174) S10000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v180) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v184) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v185) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v117) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v187) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v190) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v191) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v155) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v193) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v196) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v197) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S4x64x64 : Shape := ⟨3, ![4, 64, 64]⟩
abbrev S4x64 : Shape := ⟨2, ![4, 64]⟩
abbrev S2000000 : Shape := ⟨1, ![2000000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S2000000x1 : Shape := ⟨2, ![2000000, 1]⟩
abbrev S2000000x64 : Shape := ⟨2, ![2000000, 64]⟩
abbrev S100000 : Shape := ⟨1, ![100000]⟩
abbrev S100000x1 : Shape := ⟨2, ![100000, 1]⟩
abbrev S200000 : Shape := ⟨1, ![200000]⟩
abbrev S200000x1 : Shape := ⟨2, ![200000, 1]⟩

abbrev nBuf : Space → Nat
  | .hbm => 281
  | .vmem => 0
  | .smem => 0
  | _ => 0

abbrev hbmTy0_0 (i : Nat) : BufTy := match i % 128 with
  | 0 => ⟨S200000x64, .f32⟩
  | 1 => ⟨S100000x64, .f32⟩
  | 2 => ⟨S100000x64, .f32⟩
  | 3 => ⟨S4x64x64, .f32⟩
  | 4 => ⟨S4x64, .f32⟩
  | 5 => ⟨S4x64x64, .f32⟩
  | 6 => ⟨S4x64, .f32⟩
  | 7 => ⟨S2000000, .i32⟩
  | 8 => ⟨S2000000, .i32⟩
  | 9 => ⟨S2000000, .i32⟩
  | 10 => ⟨S2000000, .i32⟩
  | 11 => ⟨S2000000, .i32⟩
  | 12 => ⟨S2000000, .i32⟩
  | 13 => ⟨S2000000, .i32⟩
  | 14 => ⟨S2000000, .i32⟩
  | 15 => ⟨S1x64x64, .f32⟩
  | 16 => ⟨S64x64, .f32⟩
  | 17 => ⟨S1x64, .f32⟩
  | 18 => ⟨S64, .f32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000x64, .f32⟩
  | 28 => ⟨S_, .f32⟩
  | 29 => ⟨S100000x64, .f32⟩
  | 30 => ⟨S2000000x1, .i32⟩
  | 31 => ⟨S100000x64, .f32⟩
  | 32 => ⟨S_, .f32⟩
  | 33 => ⟨S2000000, .f32⟩
  | 34 => ⟨S_, .f32⟩
  | 35 => ⟨S100000, .f32⟩
  | 36 => ⟨S2000000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S1x64x64, .f32⟩
  | 49 => ⟨S64x64, .f32⟩
  | 50 => ⟨S1x64, .f32⟩
  | 51 => ⟨S64, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x64, .f32⟩
  | 61 => ⟨S_, .f32⟩
  | 62 => ⟨S200000x64, .f32⟩
  | 63 => ⟨S2000000x1, .i32⟩
  | 64 => ⟨S200000x64, .f32⟩
  | 65 => ⟨S_, .f32⟩
  | 66 => ⟨S2000000, .f32⟩
  | 67 => ⟨S_, .f32⟩
  | 68 => ⟨S200000, .f32⟩
  | 69 => ⟨S2000000x1, .i32⟩
  | 70 => ⟨S200000, .f32⟩
  | 71 => ⟨S_, .f32⟩
  | 72 => ⟨S200000, .f32⟩
  | 73 => ⟨S200000, .f32⟩
  | 74 => ⟨S200000x1, .f32⟩
  | 75 => ⟨S200000x64, .f32⟩
  | 76 => ⟨S200000x64, .f32⟩
  | 77 => ⟨S200000x64, .f32⟩
  | 78 => ⟨S1x64, .f32⟩
  | 79 => ⟨S200000x64, .f32⟩
  | 80 => ⟨S200000x64, .f32⟩
  | 81 => ⟨S1x64x64, .f32⟩
  | 82 => ⟨S64x64, .f32⟩
  | 83 => ⟨S1x64, .f32⟩
  | 84 => ⟨S64, .f32⟩
  | 85 => ⟨S_, .i32⟩
  | 86 => ⟨S2000000, .i32⟩
  | 87 => ⟨S2000000, .i1⟩
  | 88 => ⟨S_, .i32⟩
  | 89 => ⟨S2000000, .i32⟩
  | 90 => ⟨S2000000, .i32⟩
  | 91 => ⟨S2000000, .i32⟩
  | 92 => ⟨S2000000x1, .i32⟩
  | 93 => ⟨S2000000x64, .f32⟩
  | 94 => ⟨S_, .f32⟩
  | 95 => ⟨S100000x64, .f32⟩
  | 96 => ⟨S2000000x1, .i32⟩
  | 97 => ⟨S100000x64, .f32⟩
  | 98 => ⟨S_, .f32⟩
  | 99 => ⟨S2000000, .f32⟩
  | 100 => ⟨S_, .f32⟩
  | 101 => ⟨S100000, .f32⟩
  | 102 => ⟨S2000000x1, .i32⟩
  | 103 => ⟨S100000, .f32⟩
  | 104 => ⟨S_, .f32⟩
  | 105 => ⟨S100000, .f32⟩
  | 106 => ⟨S100000, .f32⟩
  | 107 => ⟨S100000x1, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S1x64x64, .f32⟩
  | 115 => ⟨S64x64, .f32⟩
  | 116 => ⟨S1x64, .f32⟩
  | 117 => ⟨S64, .f32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x64, .f32⟩
  | 127 => ⟨S_, .f32⟩
  | _ => ⟨S200000x64, .f32⟩

abbrev hbmTy0_1 (i : Nat) : BufTy := match i % 128 with
  | 0 => ⟨S200000x64, .f32⟩
  | 1 => ⟨S2000000x1, .i32⟩
  | 2 => ⟨S200000x64, .f32⟩
  | 3 => ⟨S_, .f32⟩
  | 4 => ⟨S2000000, .f32⟩
  | 5 => ⟨S_, .f32⟩
  | 6 => ⟨S200000, .f32⟩
  | 7 => ⟨S2000000x1, .i32⟩
  | 8 => ⟨S200000, .f32⟩
  | 9 => ⟨S_, .f32⟩
  | 10 => ⟨S200000, .f32⟩
  | 11 => ⟨S200000, .f32⟩
  | 12 => ⟨S200000x1, .f32⟩
  | 13 => ⟨S200000x64, .f32⟩
  | 14 => ⟨S200000x64, .f32⟩
  | 15 => ⟨S200000x64, .f32⟩
  | 16 => ⟨S1x64, .f32⟩
  | 17 => ⟨S200000x64, .f32⟩
  | 18 => ⟨S200000x64, .f32⟩
  | 19 => ⟨S200000x64, .f32⟩
  | 20 => ⟨S1x64x64, .f32⟩
  | 21 => ⟨S64x64, .f32⟩
  | 22 => ⟨S1x64, .f32⟩
  | 23 => ⟨S64, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000x64, .f32⟩
  | 33 => ⟨S_, .f32⟩
  | 34 => ⟨S100000x64, .f32⟩
  | 35 => ⟨S2000000x1, .i32⟩
  | 36 => ⟨S100000x64, .f32⟩
  | 37 => ⟨S_, .f32⟩
  | 38 => ⟨S2000000, .f32⟩
  | 39 => ⟨S_, .f32⟩
  | 40 => ⟨S100000, .f32⟩
  | 41 => ⟨S2000000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S1x64x64, .f32⟩
  | 54 => ⟨S64x64, .f32⟩
  | 55 => ⟨S1x64, .f32⟩
  | 56 => ⟨S64, .f32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S2000000x64, .f32⟩
  | 66 => ⟨S_, .f32⟩
  | 67 => ⟨S200000x64, .f32⟩
  | 68 => ⟨S2000000x1, .i32⟩
  | 69 => ⟨S200000x64, .f32⟩
  | 70 => ⟨S_, .f32⟩
  | 71 => ⟨S2000000, .f32⟩
  | 72 => ⟨S_, .f32⟩
  | 73 => ⟨S200000, .f32⟩
  | 74 => ⟨S2000000x1, .i32⟩
  | 75 => ⟨S200000, .f32⟩
  | 76 => ⟨S_, .f32⟩
  | 77 => ⟨S200000, .f32⟩
  | 78 => ⟨S200000, .f32⟩
  | 79 => ⟨S200000x1, .f32⟩
  | 80 => ⟨S200000x64, .f32⟩
  | 81 => ⟨S200000x64, .f32⟩
  | 82 => ⟨S200000x64, .f32⟩
  | 83 => ⟨S1x64, .f32⟩
  | 84 => ⟨S200000x64, .f32⟩
  | 85 => ⟨S200000x64, .f32⟩
  | 86 => ⟨S1x64x64, .f32⟩
  | 87 => ⟨S64x64, .f32⟩
  | 88 => ⟨S1x64, .f32⟩
  | 89 => ⟨S64, .f32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2000000x64, .f32⟩
  | 99 => ⟨S_, .f32⟩
  | 100 => ⟨S100000x64, .f32⟩
  | 101 => ⟨S2000000x1, .i32⟩
  | 102 => ⟨S100000x64, .f32⟩
  | 103 => ⟨S_, .f32⟩
  | 104 => ⟨S2000000, .f32⟩
  | 105 => ⟨S_, .f32⟩
  | 106 => ⟨S100000, .f32⟩
  | 107 => ⟨S2000000x1, .i32⟩
  | 108 => ⟨S100000, .f32⟩
  | 109 => ⟨S_, .f32⟩
  | 110 => ⟨S100000, .f32⟩
  | 111 => ⟨S100000, .f32⟩
  | 112 => ⟨S100000x1, .f32⟩
  | 113 => ⟨S100000x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S1x64x64, .f32⟩
  | 120 => ⟨S64x64, .f32⟩
  | 121 => ⟨S1x64, .f32⟩
  | 122 => ⟨S64, .f32⟩
  | 123 => ⟨S_, .i32⟩
  | 124 => ⟨S2000000, .i32⟩
  | 125 => ⟨S2000000, .i1⟩
  | 126 => ⟨S_, .i32⟩
  | 127 => ⟨S2000000, .i32⟩
  | _ => ⟨S200000x64, .f32⟩

abbrev hbmTy0_2 (i : Nat) : BufTy := match i % 128 with
  | 0 => ⟨S2000000, .i32⟩
  | 1 => ⟨S2000000, .i32⟩
  | 2 => ⟨S2000000x1, .i32⟩
  | 3 => ⟨S2000000x64, .f32⟩
  | 4 => ⟨S_, .f32⟩
  | 5 => ⟨S200000x64, .f32⟩
  | 6 => ⟨S2000000x1, .i32⟩
  | 7 => ⟨S200000x64, .f32⟩
  | 8 => ⟨S_, .f32⟩
  | 9 => ⟨S2000000, .f32⟩
  | 10 => ⟨S_, .f32⟩
  | 11 => ⟨S200000, .f32⟩
  | 12 => ⟨S2000000x1, .i32⟩
  | 13 => ⟨S200000, .f32⟩
  | 14 => ⟨S_, .f32⟩
  | 15 => ⟨S200000, .f32⟩
  | 16 => ⟨S200000, .f32⟩
  | 17 => ⟨S200000x1, .f32⟩
  | 18 => ⟨S200000x64, .f32⟩
  | 19 => ⟨S200000x64, .f32⟩
  | 20 => ⟨S200000x64, .f32⟩
  | 21 => ⟨S1x64, .f32⟩
  | 22 => ⟨S200000x64, .f32⟩
  | 23 => ⟨S200000x64, .f32⟩
  | 24 => ⟨S200000x64, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_c_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_16 : Ref sig .tc := ⟨.hbm, 118, rfl⟩
abbrev main_v85 : Ref sig .tc := ⟨.hbm, 119, rfl⟩
abbrev main_v86 : Ref sig .tc := ⟨.hbm, 120, rfl⟩
abbrev main_c_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_19 : Ref sig .tc := ⟨.hbm, 131, rfl⟩
abbrev main_v95 : Ref sig .tc := ⟨.hbm, 132, rfl⟩
abbrev main_cst_20 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_21 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_c_22 : Ref sig .tc := ⟨.hbm, 152, rfl⟩
abbrev main_v113 : Ref sig .tc := ⟨.hbm, 153, rfl⟩
abbrev main_v114 : Ref sig .tc := ⟨.hbm, 154, rfl⟩
abbrev main_c_23 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_24 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_25 : Ref sig .tc := ⟨.hbm, 165, rfl⟩
abbrev main_v123 : Ref sig .tc := ⟨.hbm, 166, rfl⟩
abbrev main_cst_26 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_c_28 : Ref sig .tc := ⟨.hbm, 185, rfl⟩
abbrev main_v140 : Ref sig .tc := ⟨.hbm, 186, rfl⟩
abbrev main_v141 : Ref sig .tc := ⟨.hbm, 187, rfl⟩
abbrev main_c_29 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_30 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_31 : Ref sig .tc := ⟨.hbm, 198, rfl⟩
abbrev main_v150 : Ref sig .tc := ⟨.hbm, 199, rfl⟩
abbrev main_cst_32 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_33 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_c_34 : Ref sig .tc := ⟨.hbm, 218, rfl⟩
abbrev main_v167 : Ref sig .tc := ⟨.hbm, 219, rfl⟩
abbrev main_v168 : Ref sig .tc := ⟨.hbm, 220, rfl⟩
abbrev main_c_35 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_36 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_cst_37 : Ref sig .tc := ⟨.hbm, 231, rfl⟩
abbrev main_v177 : Ref sig .tc := ⟨.hbm, 232, rfl⟩
abbrev main_cst_38 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_cst_39 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_c_40 : Ref sig .tc := ⟨.hbm, 251, rfl⟩
abbrev main_v194 : Ref sig .tc := ⟨.hbm, 252, rfl⟩
abbrev main_v195 : Ref sig .tc := ⟨.hbm, 253, rfl⟩
abbrev main_c_41 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_cst_42 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_cst_43 : Ref sig .tc := ⟨.hbm, 264, rfl⟩
abbrev main_v204 : Ref sig .tc := ⟨.hbm, 265, rfl⟩
abbrev main_cst_44 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_cst_45 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩

abbrev nD : Nat := 1
abbrev τ : Topo := Topo.v7x

variable {F : FTy → Type} [FloatOps F]

class Facts₀ : Prop where
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_1_0_0 : S4x64x64.Slices ![1, 0, 0] S1x64x64
  slices_S4x64_S1x64_1_0 : S4x64.Slices ![1, 0] S1x64
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S1x64_S200000x64_0_1 : S1x64.BroadcastsInDim S200000x64 (![0, 1] : Fin 2 → Fin S200000x64.rank)
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x64_S64x64_S100000x64_1_0_0_1_n_n_wf : DotDims.WF S100000x64 S64x64 S100000x64 [1] [0] [0] [1] [] []
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000_S2000000x1_S2000000_n_0_0_1_wf : ScatterDims.WF S200000 S2000000x1 S2000000 [] [0] [0] 1
  dot_S200000x64_S64x64_S200000x64_1_0_0_1_n_n_wf : DotDims.WF S200000x64 S64x64 S200000x64 [1] [0] [0] [1] [] []

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.KRun.lean ====
/-
  The idealized kernel's run, read for its values.  The program is six kernel launches among stretches of host
  operations; the contents of every buffer at each boundary are a fold through the program (a host stretch applies its
  operations, a launch replaces its arrays by what its grid points wrote back).  Every weakly fair execution terminates
  with every buffer outside any scope at the last boundary's contents: this is the launch theorem for a list of segments,
  with its final reading kept whole instead of being narrowed to the argument arrays.
-/
import proofs.«154951_j87230785782112_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with each buffer that is in no scope holding the contents
    of the last boundary of the fold. -/
theorem run_last : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W12 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c b hb => h c _ (mem_uc b hb))

end Cert.KernelIdeal.ValueRun

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«154951_j87230785782112_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.Linear.lean ====
/-
  One linear layer at the ideal values.  For a matrix H of n rows and 64 columns, a 64 x 64 weight W and a bias row B
  (kept as a 1 x 64 array), the layer's entry (p, q) is

        lin H W B (p, q)  =  sum over k < 64 of  H(p, k) * W(k, q)   +   B(0, q)

  on the extended reals.  Two spellings of the layer are read here at an entry and found to be this function:
  the matrix-unit product of the operands (their change of float format is the identity on ideal values) into a zero
  accumulator plus the bias row repeated down the rows, and the host's matrix product plus the bias vector laid along
  every row.  No law of arithmetic is used beyond reading each sum at an entry: the two spellings add the same terms,
  in the same grouping, so nothing here needs the entries to be finite.
-/
import proofs.«154951_j87230785782112_1_alg».proof.Proof.LibMatmulSum
import proofs.«154951_j87230785782112_1_alg».proof.Proof.LibHostDotSum
import Idealize.ShloMosaic.Lib.ValueLayout
import Idealize.ShloMosaic.Lib.KernelVsHost

noncomputable section

namespace Cert.Linear

open Idealize.ShloMosaic Idealize.ShloMosaic.ValueIdx Cert.LibMatmulSum

/-- The layer, entry by entry: the row of H against the column of W, plus the bias at the column. -/
def lin {n : ℕ} (H : (⟨2, ![n, 64]⟩ : Shape).Idx → EReal) (Wm : (⟨2, ![64, 64]⟩ : Shape).Idx → EReal)
    (B : (⟨2, ![1, 64]⟩ : Shape).Idx → EReal) : (⟨2, ![n, 64]⟩ : Shape).Idx → EReal :=
  fun i => (∑ k : Fin 64, H (ix2 (i 0 : Fin n) k) * Wm (ix2 k (i 1 : Fin 64))) + B (ix2 (0 : Fin 1) (i 1 : Fin 64))

theorem lin_apply {n : ℕ} (H : (⟨2, ![n, 64]⟩ : Shape).Idx → EReal) (Wm : (⟨2, ![64, 64]⟩ : Shape).Idx → EReal)
    (B : (⟨2, ![1, 64]⟩ : Shape).Idx → EReal) (p : Fin n) (q : Fin 64) :
    lin H Wm B (ix2 p q) = (∑ k : Fin 64, H (ix2 p k) * Wm (ix2 k q)) + B (ix2 (0 : Fin 1) q) := rfl

/-- Row p of the layer depends on row p of H only: if H' at row p' is H at row p, the entries agree. -/
theorem lin_row {n n' : ℕ} (H : (⟨2, ![n, 64]⟩ : Shape).Idx → EReal) (H' : (⟨2, ![n', 64]⟩ : Shape).Idx → EReal)
    (Wm : (⟨2, ![64, 64]⟩ : Shape).Idx → EReal) (B : (⟨2, ![1, 64]⟩ : Shape).Idx → EReal) (p : Fin n) (p' : Fin n') (q : Fin 64)
    (h : ∀ k : Fin 64, H' (ix2 p' k) = H (ix2 p k)) : lin H' Wm B (ix2 p' q) = lin H Wm B (ix2 p q) := by
  rw [lin_apply, lin_apply]
  exact congrArg (· + B (ix2 (0 : Fin 1) q)) (Finset.sum_congr rfl fun k _ => by rw [h k])

/-- Two relations arriving at the same nodes: the sum of their layers, entry by entry. -/
def lin2 {n : ℕ} (H : (⟨2, ![n, 64]⟩ : Shape).Idx → EReal) (Wm : (⟨2, ![64, 64]⟩ : Shape).Idx → EReal) (B : (⟨2, ![1, 64]⟩ : Shape).Idx → EReal)
    (H' : (⟨2, ![n, 64]⟩ : Shape).Idx → EReal) (Wm' : (⟨2, ![64, 64]⟩ : Shape).Idx → EReal) (B' : (⟨2, ![1, 64]⟩ : Shape).Idx → EReal) :
    (⟨2, ![n, 64]⟩ : Shape).Idx → EReal :=
  fun i => lin H Wm B i + lin H' Wm' B' i

/-- The layer on a block of rows: if a block's row p is the whole matrix's row P, and the block's weights and bias are the
    whole ones at the column read, the block's entry (p, q) is the whole layer's entry (P, q). -/
theorem lin_block {n N : ℕ} (H : (⟨2, ![N, 64]⟩ : Shape).Idx → EReal) (Hb : (⟨2, ![n, 64]⟩ : Shape).Idx → EReal)
    (Wm Wb : (⟨2, ![64, 64]⟩ : Shape).Idx → EReal) (B Bb : (⟨2, ![1, 64]⟩ : Shape).Idx → EReal) (P : Fin N) (p : Fin n) (q : Fin 64)
    (hH : ∀ k : Fin 64, Hb (ix2 p k) = H (ix2 P k)) (hW : ∀ k : Fin 64, Wb (ix2 k q) = Wm (ix2 k q))
    (hB : Bb (ix2 (0 : Fin 1) q) = B (ix2 (0 : Fin 1) q)) : lin Hb Wb Bb (ix2 p q) = lin H Wm B (ix2 P q) := by
  rw [lin_apply, lin_apply, hB]
  exact congrArg (· + B (ix2 (0 : Fin 1) q)) (Finset.sum_congr rfl fun k _ => by rw [hH k, hW k])

/-- The matrix-unit spelling: operands narrowed to bf16 (the identity on ideal values) and multiplied into a zero
    accumulator, plus the 1 x 64 bias repeated down the n rows. -/
theorem unit_lin {n : ℕ} {d : DotDims ⟨2, ![n, 64]⟩ ⟨2, ![64, 64]⟩ ⟨2, ![n, 64]⟩} (hd : Plain d)
    (hH : (⟨2, ![n, 64]⟩ : Shape).ShapeCasts ⟨2, ![n, 64]⟩) (hW : (⟨2, ![64, 64]⟩ : Shape).ShapeCasts ⟨2, ![64, 64]⟩)
    (hB : (⟨2, ![1, 64]⟩ : Shape).ShapeCasts ⟨2, ![1, 64]⟩) (hbits : FTy.bf16.bits < FTy.f32.bits)
    (hbc : (⟨2, ![1, 64]⟩ : Shape).Broadcasts ⟨2, ![n, 64]⟩)
    (x0 : FVec Ideal ⟨2, ![n, 64]⟩ .f32) (x1 : FVec Ideal ⟨2, ![64, 64]⟩ .f32) (x2 : FVec Ideal ⟨2, ![1, 64]⟩ .f32) :
    addf (matmul d none (truncf .bf16 (shapeCast ⟨2, ![n, 64]⟩ x0 hH) hbits) (truncf .bf16 (shapeCast ⟨2, ![64, 64]⟩ x1 hW) hbits)
        (constant ⟨2, ![n, 64]⟩ .f32 0x00000000#32))
      (broadcastTo ⟨2, ![n, 64]⟩ (shapeCast ⟨2, ![1, 64]⟩ x2 hB) hbc) = lin x0 x1 x2 := by
  funext i
  obtain ⟨p, q, rfl⟩ : ∃ (p : Fin n) (q : Fin 64), i = ix2 p q := ⟨i 0, i 1, eq_ix2 i⟩
  rw [lin_apply, shapeCast_self, shapeCast_self, shapeCast_self]
  refine congrArg₂ (· + ·) ?_ ?_
  · exact matmul_zero_at hd none (truncf .bf16 x0 hbits) (truncf .bf16 x1 hbits) p q
  · exact broadcastTo_1b_ab_apply x2 hbc p q

/-- The host's spelling: its matrix product, plus the bias vector made a 1 x 64 row and laid along each of the n rows.
    The bias row of lin is the vector cast to 1 x 64. -/
theorem host_lin {n : ℕ} {d : DotDims ⟨2, ![n, 64]⟩ ⟨2, ![64, 64]⟩ ⟨2, ![n, 64]⟩} (hd : Plain d)
    (hb1 : (⟨1, ![64]⟩ : Shape).BroadcastsInDim ⟨2, ![1, 64]⟩ ![1])
    (hb2 : (⟨2, ![1, 64]⟩ : Shape).BroadcastsInDim ⟨2, ![n, 64]⟩ ![0, 1])
    (hc : (⟨1, ![64]⟩ : Shape).ShapeCasts ⟨2, ![1, 64]⟩)
    (H : FVec Ideal ⟨2, ![n, 64]⟩ .f32) (Wm : FVec Ideal ⟨2, ![64, 64]⟩ .f32) (b : FVec Ideal ⟨1, ![64]⟩ .f32) :
    addf (Host.dotGeneral d none H Wm) (broadcastInDim ⟨2, ![n, 64]⟩ ![0, 1] hb2 (broadcastInDim ⟨2, ![1, 64]⟩ ![1] hb1 b))
      = lin H Wm (shapeCast ⟨2, ![1, 64]⟩ b hc) := by
  funext i
  obtain ⟨p, q, rfl⟩ : ∃ (p : Fin n) (q : Fin 64), i = ix2 p q := ⟨i 0, i 1, eq_ix2 i⟩
  rw [lin_apply]
  refine congrArg₂ (· + ·) ?_ ?_
  · exact hostDot_at hd none H Wm p q
  · refine (broadcastInDim_oneRow_apply hb2 _ p q).trans ?_
    refine (broadcastInDim_apply ![1] hb1 b (ix2 (0 : Fin 1) q) (ix1 q) ?_).trans (shapeCast_a_1a_apply b hc 0 q).symm
    intro a
    match a with
    | ⟨0, _⟩ =>
      show q.val = if (64 : ℕ) = 1 then 0 else q.val
      rw [if_neg (by decide)]

end Cert.Linear

end
-- ==== Proof.Region0.lean ====
/-
  The first two-product launch (the layer of the user nodes): what its output array holds after the launch.
  The grid has 20 points; point t stages rows 10000 t ... 10000 t + 9999 of the two normalised aggregates arriving at users,
  with each relation's whole 64 x 64 weight and 1 x 64 bias, computes the two relations' layers on the block, adds them and
  writes the block back to the same rows of the output.  Row P of either layer depends on row P of its aggregate only, so
  the block written at point t is rows 10000 t ... of the sum of the two layers of the WHOLE arrays, and the twenty blocks
  cover the output.
-/
import proofs.«154951_j87230785782112_1_alg».proof.Proof.Gen.KernelIdeal.Frame
import proofs.«154951_j87230785782112_1_alg».proof.Proof.Linear
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Linear

variable (V : (c : Dev nD) → (b : Ref sig .tc) → Buf (Elt Ideal) ((c : Thread nD τ).loc b))

/-- The block product's dimension numbers spell a plain product with 64 terms. -/
theorem plain : Cert.LibMatmulSum.Plain dot_S10000x64_S64x64_S10000x64_1_0_0_1_n_n :=
  ⟨rfl, rfl, fun _ _ => rfl, fun _ _ => rfl, fun _ _ => rfl, fun _ _ => rfl⟩

/-- The body's arithmetic on a block is the sum of the two relations' layers on the block. -/
theorem pay (x0 : Vec Ideal S10000x64 .f32) (x1 : Vec Ideal S64x64 .f32) (x2 : Vec Ideal S1x64 .f32)
    (x3 : Vec Ideal S10000x64 .f32) (x4 : Vec Ideal S64x64 .f32) (x5 : Vec Ideal S1x64 .f32) :
    k0_pay1 (F := Ideal) x0 x1 x3 x4 x2 x5 = lin2 x0 x1 x2 x3 x4 x5 := by
  have h1 := unit_lin plain shapeCasts_S10000x64_S10000x64 shapeCasts_S64x64_S64x64 shapeCasts_S1x64_S1x64 bitsLt_bf16_f32 broadcasts_S1x64_S10000x64 x0 x1 x2
  have h2 := unit_lin plain shapeCasts_S10000x64_S10000x64 shapeCasts_S64x64_S64x64 shapeCasts_S1x64_S1x64 bitsLt_bf16_f32 broadcasts_S1x64_S10000x64 x3 x4 x5
  funext i
  exact congrArg₂ (· + ·) (congrFun h1 i) (congrFun h2 i)

theorem hz : (![0, 0] : Fin 2 → Nat) = fun _ => 0 := funext fun a => by fin_cases a <;> rfl

/-- The index maps over the grid: the row block of either aggregate and of the output is the point's number, every other
    block index 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the sum of the two layers of the whole arrays. -/
theorem flushed_eq (c : Dev nD) (t : Fin cfg0.N) :
    (dat0 V c).flushed 6 t = ((cfg0.win 6).blk t).view.read (Elt Ideal)
      (lin2 (V c main_v37) (V c main_v77) (V c main_v84) (V c main_v75) (V c main_v81) (V c main_v85)) := by
  show (cfg0.win 6).cut (grid0.coords t) ((dat0 V c).after 6 t) = _
  rw [after0_6]
  unfold out0_6
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7, e8, e9, e10, e11, e12, e13⟩ := idx_facts t
  have ht : t.val < 20 := by have h : t.val < grid0.N := t.isLt; rw [N_0] at h; exact h
  funext j
  obtain ⟨p, q, rfl⟩ : ∃ (p : Fin 10000) (q : Fin 64), j = ix2 p q := ⟨j 0, j 1, eq_ix2 j⟩
  show lin (iblk0 V c 0 t) (iblk0 V c 1 t) (iblk0 V c 2 t) (ix2 p q) + lin (iblk0 V c 3 t) (iblk0 V c 4 t) (iblk0 V c 5 t) (ix2 p q)
    = lin2 (V c main_v37) (V c main_v77) (V c main_v84) (V c main_v75) (V c main_v81) (V c main_v85) (((cfg0.win 6).blk t).view.emb (ix2 p q))
  have hemb : ((cfg0.win 6).blk t).view.emb (ix2 p q) = ix2 (⟨t.val * 10000 + p.val, by omega⟩ : Fin 200000) q := by
    funext a; apply Fin.ext
    match a with
    | ⟨0, _⟩ => show win0_6.index t (0 : Fin 2) * 10000 + 1 * p.val = t.val * 10000 + p.val; omega
    | ⟨1, _⟩ => show win0_6.index t (1 : Fin 2) * 64 + 1 * q.val = q.val; omega
  rw [hemb]
  show _ = lin (V c main_v37) (V c main_v77) (V c main_v84) (ix2 (⟨t.val * 10000 + p.val, by omega⟩ : Fin 200000) q)
    + lin (V c main_v75) (V c main_v81) (V c main_v85) (ix2 (⟨t.val * 10000 + p.val, by omega⟩ : Fin 200000) q)
  refine congrArg₂ (· + ·) (lin_block _ _ _ _ _ _ _ p q (fun k => ?_) (fun k => ?_) ?_) (lin_block _ _ _ _ _ _ _ p q (fun k => ?_) (fun k => ?_) ?_)
  · show V c main_v37 (((cfg0.win 0).blk t).view.emb (ix2 p k)) = V c main_v37 (ix2 (⟨t.val * 10000 + p.val, by omega⟩ : Fin 200000) k)
    refine congrArg (V c main_v37) (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · show V c main_v77 (((cfg0.win 1).blk t).view.emb (ix2 k q)) = V c main_v77 (ix2 k q)
    refine congrArg (V c main_v77) (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  · show V c main_v84 (((cfg0.win 2).blk t).view.emb (ix2 (0 : Fin 1) q)) = V c main_v84 (ix2 (0 : Fin 1) q)
    refine congrArg (V c main_v84) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  · show V c main_v75 (((cfg0.win 3).blk t).view.emb (ix2 p k)) = V c main_v75 (ix2 (⟨t.val * 10000 + p.val, by omega⟩ : Fin 200000) k)
    refine congrArg (V c main_v75) (funext fun a => Fin.ext ?_)
    match a with
    | ⟨0, _⟩ => show win0_3.index t (0 : Fin 2) * 10000 + 1 * p.val = t.val * 10000 + p.val; omega
    | ⟨1, _⟩ => show win0_3.index t (1 : Fin 2) * 64 + 1 * k.val = k.val; omega
  · show V c main_v81 (((cfg0.win 4).blk t).view.emb (ix2 k q)) = V c main_v81 (ix2 k q)
    refine congrArg (V c main_v81) (funext fun a => Fin.ext ?_)
    match a with
    | ⟨0, _⟩ => show win0_4.index t (0 : Fin 2) * 64 + 1 * k.val = k.val; omega
    | ⟨1, _⟩ => show win0_4.index t (1 : Fin 2) * 64 + 1 * q.val = q.val; omega
  · show V c main_v85 (((cfg0.win 5).blk t).view.emb (ix2 (0 : Fin 1) q)) = V c main_v85 (ix2 (0 : Fin 1) q)
    refine congrArg (V c main_v85) (funext fun a => Fin.ext ?_)
    match a with
    | ⟨0, _⟩ => show win0_5.index t (0 : Fin 2) * 1 + 1 * 0 = 0; omega
    | ⟨1, _⟩ => show win0_5.index t (1 : Fin 2) * 64 + 1 * q.val = q.val; omega

/-- An index of the output is in point t's block iff its row is among the block's 10000 rows. -/
theorem mem_blk (t : Fin cfg0.N) (i : S200000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v86).slice (win0_6.rect t)).set ↔ _
  rw [View.set_slice_whole, Rect.mem_set_unit]
  exact Iff.rfl

/-- Row r of the output is written by the point r / 10000. -/
theorem cover (i : S200000x64.Idx) : ∃ t : Fin cfg0.N, (cfg0.win 6).flush t = true ∧ i ∈ ((cfg0.win 6).blk t).view.set := by
  have hi0 : (i 0).val < 200000 := (i 0).isLt
  have hi1 : (i 1).val < 64 := (i 1).isLt
  have hN : (i 0).val / 10000 < grid0.N := by rw [N_0]; omega
  refine ⟨⟨(i 0).val / 10000, hN⟩, flush0_6 _, ?_⟩
  rw [mem_blk]
  obtain ⟨e0, e1, e2, e3, e4, e5, e6, e7, e8, e9, e10, e11, e12, e13⟩ := idx_facts ⟨(i 0).val / 10000, hN⟩
  intro a
  match a with
  | ⟨0, _⟩ =>
    show win0_6.index ⟨(i 0).val / 10000, hN⟩ (0 : Fin 2) * 10000 ≤ (i 0).val ∧ (i 0).val < win0_6.index ⟨(i 0).val / 10000, hN⟩ (0 : Fin 2) * 10000 + 10000
    rw [e12]; show (i 0).val / 10000 * 10000 ≤ (i 0).val ∧ (i 0).val < (i 0).val / 10000 * 10000 + 10000; omega
  | ⟨1, _⟩ =>
    show win0_6.index ⟨(i 0).val / 10000, hN⟩ (1 : Fin 2) * 64 ≤ (i 1).val ∧ (i 1).val < win0_6.index ⟨(i 0).val / 10000, hN⟩ (1 : Fin 2) * 64 + 64
    rw [e13]; omega

/-- The output array after the launch is the sum of the two layers of the arrays the launch found. -/
theorem final (c : Dev nD) : (dat0 V c).arrAt 6 cfg0.N
    = lin2 (V c main_v37) (V c main_v77) (V c main_v84) (V c main_v75) (V c main_v81) (V c main_v85) :=
  (dat0 V c).arrAt_eq_of_cover 6 _ (fun t _ => flushed_eq V c t) cover

end Cert.KernelIdeal.Region0

end
-- ==== Proof.Region1.lean ====
/-
  The first one-product launch (the layer of the first kind of item nodes): what its output array holds after the launch.
  The grid has 10 points; point t stages rows 10000 t ... 10000 t + 9999 of the normalised aggregate H, the whole
  64 x 64 weight and the 1 x 64 bias, computes the layer on the block and writes the block back to the same rows of the
  output.  Row P of the layer depends on row P of H only, so the block written at point t is rows 10000 t ... of the layer
  of the WHOLE arrays, and the ten blocks cover the output: the output array is lin H W B.
-/
import proofs.«154951_j87230785782112_1_alg».proof.Proof.Gen.KernelIdeal.Frame
import proofs.«154951_j87230785782112_1_alg».proof.Proof.Linear
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Linear

variable (V : (c : Dev nD) → (b : Ref sig .tc) → Buf (Elt Ideal) ((c : Thread nD τ).loc b))

/-- The block product's dimension numbers spell a plain product with 64 terms. -/
theorem plain : Cert.LibMatmulSum.Plain dot_S10000x64_S64x64_S10000x64_1_0_0_1_n_n :=
  ⟨rfl, rfl, fun _ _ => rfl, fun _ _ => rfl, fun _ _ => rfl, fun _ _ => rfl⟩

/-- The body's arithmetic on a block is the layer on the block. -/
theorem pay (x0 : Vec Ideal S10000x64 .f32) (x1 : Vec Ideal S64x64 .f32) (x2 : Vec Ideal S1x64 .f32) :
    k1_pay1 (F := Ideal) x0 x1 x2 = lin x0 x1 x2 :=
  unit_lin plain _ _ _ _ _ x0 x1 x2

theorem hz : (![0, 0] : Fin 2 → Nat) = fun _ => 0 := funext fun a => by fin_cases a <;> rfl

/-- The index maps over the grid: the row block of H and of the output is the point's number, every other block index 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer of the whole arrays. -/
theorem flushed_eq (c : Dev nD) (t : Fin cfg1.N) :
    (dat1 V c).flushed 3 t = ((cfg1.win 3).blk t).view.read (Elt Ideal) (lin (V c main_v18) (V c main_v88) (V c main_v91)) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7⟩ := idx_facts t
  have ht : t.val < 10 := by have h : t.val < grid1.N := t.isLt; rw [N_1] at h; exact h
  funext j
  obtain ⟨p, q, rfl⟩ : ∃ (p : Fin 10000) (q : Fin 64), j = ix2 p q := ⟨j 0, j 1, eq_ix2 j⟩
  show lin (iblk1 V c 0 t) (iblk1 V c 1 t) (iblk1 V c 2 t) (ix2 p q)
    = lin (V c main_v18) (V c main_v88) (V c main_v91) (((cfg1.win 3).blk t).view.emb (ix2 p q))
  have hemb : ((cfg1.win 3).blk t).view.emb (ix2 p q) = ix2 (⟨t.val * 10000 + p.val, by omega⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  rw [hemb]
  refine lin_block _ _ _ _ _ _ _ p q (fun k => ?_) (fun k => ?_) ?_
  · show V c main_v18 (((cfg1.win 0).blk t).view.emb (ix2 p k)) = V c main_v18 (ix2 (⟨t.val * 10000 + p.val, by omega⟩ : Fin 100000) k)
    refine congrArg (V c main_v18) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · show V c main_v88 (((cfg1.win 1).blk t).view.emb (ix2 k q)) = V c main_v88 (ix2 k q)
    refine congrArg (V c main_v88) (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega
  · show V c main_v91 (((cfg1.win 2).blk t).view.emb (ix2 (0 : Fin 1) q)) = V c main_v91 (ix2 (0 : Fin 1) q)
    refine congrArg (V c main_v91) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega

/-- An index of the output is in point t's block iff its row is among the block's 10000 rows. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v92).slice (win1_3.rect t)).set ↔ _
  rw [View.set_slice_whole, Rect.mem_set_unit]
  exact Iff.rfl

/-- Row r of the output is written by the point r / 10000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 10000 < grid1.N := by rw [N_1]; omega
  refine ⟨⟨(i 0).val / 10000, hN⟩, flush1_3 _, ?_⟩
  rw [mem_blk]
  obtain ⟨e0, e1, e2, e3, e4, e5, e6, e7⟩ := idx_facts ⟨(i 0).val / 10000, hN⟩
  intro a
  match a with
  | ⟨0, _⟩ =>
    show win1_3.index ⟨(i 0).val / 10000, hN⟩ (0 : Fin 2) * 10000 ≤ (i 0).val ∧ (i 0).val < win1_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, hN⟩ (1 : Fin 2) * 64 ≤ (i 1).val ∧ (i 1).val < win1_3.index ⟨(i 0).val / 10000, hN⟩ (1 : Fin 2) * 64 + 64
    rw [e7]; omega

/-- The output array after the launch is the layer of the arrays the launch found. -/
theorem final (c : Dev nD) : (dat1 V c).arrAt 3 cfg1.N = lin (V c main_v18) (V c main_v88) (V c main_v91) :=
  (dat1 V c).arrAt_eq_of_cover 3 _ (fun t _ => flushed_eq V c t) cover

end Cert.KernelIdeal.Region1

end
-- ==== Proof.Region2.lean ====
/-
  The second one-product launch (the first layer of the second kind of item nodes): what its output array holds after the launch.
  The grid has 10 points; point t stages rows 10000 t ... 10000 t + 9999 of the normalised aggregate H, the whole
  64 x 64 weight and the 1 x 64 bias, computes the layer on the block and writes the block back to the same rows of the
  output.  Row P of the layer depends on row P of H only, so the block written at point t is rows 10000 t ... of the layer
  of the WHOLE arrays, and the ten blocks cover the output: the output array is lin H W B.
-/
import proofs.«154951_j87230785782112_1_alg».proof.Proof.Gen.KernelIdeal.Frame
import proofs.«154951_j87230785782112_1_alg».proof.Proof.Linear
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Linear

variable (V : (c : Dev nD) → (b : Ref sig .tc) → Buf (Elt Ideal) ((c : Thread nD τ).loc b))

/-- The block product's dimension numbers spell a plain product with 64 terms. -/
theorem plain : Cert.LibMatmulSum.Plain dot_S10000x64_S64x64_S10000x64_1_0_0_1_n_n :=
  ⟨rfl, rfl, fun _ _ => rfl, fun _ _ => rfl, fun _ _ => rfl, fun _ _ => rfl⟩

/-- The body's arithmetic on a block is the layer on the block. -/
theorem pay (x0 : Vec Ideal S10000x64 .f32) (x1 : Vec Ideal S64x64 .f32) (x2 : Vec Ideal S1x64 .f32) :
    k2_pay1 (F := Ideal) x0 x1 x2 = lin x0 x1 x2 :=
  unit_lin plain _ _ _ _ _ x0 x1 x2

theorem hz : (![0, 0] : Fin 2 → Nat) = fun _ => 0 := funext fun a => by fin_cases a <;> rfl

/-- The index maps over the grid: the row block of H and of the output is the point's number, every other block index 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the layer of the whole arrays. -/
theorem flushed_eq (c : Dev nD) (t : Fin cfg2.N) :
    (dat2 V c).flushed 3 t = ((cfg2.win 3).blk t).view.read (Elt Ideal) (lin (V c main_v56) (V c main_v94) (V c main_v97)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7⟩ := idx_facts t
  have ht : t.val < 10 := by have h : t.val < grid2.N := t.isLt; rw [N_2] at h; exact h
  funext j
  obtain ⟨p, q, rfl⟩ : ∃ (p : Fin 10000) (q : Fin 64), j = ix2 p q := ⟨j 0, j 1, eq_ix2 j⟩
  show lin (iblk2 V c 0 t) (iblk2 V c 1 t) (iblk2 V c 2 t) (ix2 p q)
    = lin (V c main_v56) (V c main_v94) (V c main_v97) (((cfg2.win 3).blk t).view.emb (ix2 p q))
  have hemb : ((cfg2.win 3).blk t).view.emb (ix2 p q) = ix2 (⟨t.val * 10000 + p.val, by omega⟩ : Fin 100000) q := by
    funext a; apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  rw [hemb]
  refine lin_block _ _ _ _ _ _ _ p q (fun k => ?_) (fun k => ?_) ?_
  · show V c main_v56 (((cfg2.win 0).blk t).view.emb (ix2 p k)) = V c main_v56 (ix2 (⟨t.val * 10000 + p.val, by omega⟩ : Fin 100000) k)
    refine congrArg (V c main_v56) (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · show V c main_v94 (((cfg2.win 1).blk t).view.emb (ix2 k q)) = V c main_v94 (ix2 k q)
    refine congrArg (V c main_v94) (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega
  · show V c main_v97 (((cfg2.win 2).blk t).view.emb (ix2 (0 : Fin 1) q)) = V c main_v97 (ix2 (0 : Fin 1) q)
    refine congrArg (V c main_v97) (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega

/-- An index of the output is in point t's block iff its row is among the block's 10000 rows. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v98).slice (win2_3.rect t)).set ↔ _
  rw [View.set_slice_whole, Rect.mem_set_unit]
  exact Iff.rfl

/-- Row r of the output is written by the point r / 10000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 10000 < grid2.N := by rw [N_2]; omega
  refine ⟨⟨(i 0).val / 10000, hN⟩, flush2_3 _, ?_⟩
  rw [mem_blk]
  obtain ⟨e0, e1, e2, e3, e4, e5, e6, e7⟩ := idx_facts ⟨(i 0).val / 10000, hN⟩
  intro a
  match a with
  | ⟨0, _⟩ =>
    show win2_3.index ⟨(i 0).val / 10000, hN⟩ (0 : Fin 2) * 10000 ≤ (i 0).val ∧ (i 0).val < win2_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, hN⟩ (1 : Fin 2) * 64 ≤ (i 1).val ∧ (i 1).val < win2_3.index ⟨(i 0).val / 10000, hN⟩ (1 : Fin 2) * 64 + 64
    rw [e7]; omega

/-- The output array after the launch is the layer of the arrays the launch found. -/
theorem final (c : Dev nD) : (dat2 V c).arrAt 3 cfg2.N = lin (V c main_v56) (V c main_v94) (V c main_v97) :=
  (dat2 V c).arrAt_eq_of_cover 3 _ (fun t _ => flushed_eq V c t) cover

end Cert.KernelIdeal.Region2

end
-- ==== Proof.Region3.lean ====
/-
  The second two-product launch (the second layer of the user nodes): what its output array holds after the launch.
  The grid has 20 points; point t stages rows 10000 t ... 10000 t + 9999 of the two normalised aggregates arriving at users,
  with each relation's whole 64 x 64 weight and 1 x 64 bias, computes the two relations' layers on the block, adds them and
  writes the block back to the same rows of the output.  Row P of either layer depends on row P of its aggregate only, so
  the block written at point t is rows 10000 t ... of the sum of the two layers of the WHOLE arrays, and the twenty blocks
  cover the output.
-/
import proofs.«154951_j87230785782112_1_alg».proof.Proof.Gen.KernelIdeal.Frame
import proofs.«154951_j87230785782112_1_alg».proof.Proof.Linear
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Linear

variable (V : (c : Dev nD) → (b : Ref sig .tc) → Buf (Elt Ideal) ((c : Thread nD τ).loc b))

/-- The block product's dimension numbers spell a plain product with 64 terms. -/
theorem plain : Cert.LibMatmulSum.Plain dot_S10000x64_S64x64_S10000x64_1_0_0_1_n_n :=
  ⟨rfl, rfl, fun _ _ => rfl, fun _ _ => rfl, fun _ _ => rfl, fun _ _ => rfl⟩

/-- The body's arithmetic on a block is the sum of the two relations' layers on the block. -/
theorem pay (x0 : Vec Ideal S10000x64 .f32) (x1 : Vec Ideal S64x64 .f32) (x2 : Vec Ideal S1x64 .f32)
    (x3 : Vec Ideal S10000x64 .f32) (x4 : Vec Ideal S64x64 .f32) (x5 : Vec Ideal S1x64 .f32) :
    k3_pay1 (F := Ideal) x0 x1 x3 x4 x2 x5 = lin2 x0 x1 x2 x3 x4 x5 := by
  have h1 := unit_lin plain shapeCasts_S10000x64_S10000x64 shapeCasts_S64x64_S64x64 shapeCasts_S1x64_S1x64 bitsLt_bf16_f32 broadcasts_S1x64_S10000x64 x0 x1 x2
  have h2 := unit_lin plain shapeCasts_S10000x64_S10000x64 shapeCasts_S64x64_S64x64 shapeCasts_S1x64_S1x64 bitsLt_bf16_f32 broadcasts_S1x64_S10000x64 x3 x4 x5
  funext i
  exact congrArg₂ (· + ·) (congrFun h1 i) (congrFun h2 i)

theorem hz : (![0, 0] : Fin 2 → Nat) = fun _ => 0 := funext fun a => by fin_cases a <;> rfl

/-- The index maps over the grid: the row block of either aggregate and of the output is the point's number, every other
    block index 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point t writes back is block t of the sum of the two layers of the whole arrays. -/
theorem flushed_eq (c : Dev nD) (t : Fin cfg3.N) :
    (dat3 V c).flushed 6 t = ((cfg3.win 6).blk t).view.read (Elt Ideal)
      (lin2 (V c main_v136) (V c main_v176) (V c main_v183) (V c main_v174) (V c main_v180) (V c main_v184)) := by
  show (cfg3.win 6).cut (grid3.coords t) ((dat3 V c).after 6 t) = _
  rw [after3_6]
  unfold out3_6
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7, e8, e9, e10, e11, e12, e13⟩ := idx_facts t
  have ht : t.val < 20 := by have h : t.val < grid3.N := t.isLt; rw [N_3] at h; exact h
  funext j
  obtain ⟨p, q, rfl⟩ : ∃ (p : Fin 10000) (q : Fin 64), j = ix2 p q := ⟨j 0, j 1, eq_ix2 j⟩
  show lin (iblk3 V c 0 t) (iblk3 V c 1 t) (iblk3 V c 2 t) (ix2 p q) + lin (iblk3 V c 3 t) (iblk3 V c 4 t) (iblk3 V c 5 t) (ix2 p q)
    = lin2 (V c main_v136) (V c main_v176) (V c main_v183) (V c main_v174) (V c main_v180) (V c main_v184) (((cfg3.win 6).blk t).view.emb (ix2 p q))
  have hemb : ((cfg3.win 6).blk t).view.emb (ix2 p q) = ix2 (⟨t.val * 10000 + p.val, by omega⟩ : Fin 200000) q := by
    funext a; apply Fin.ext
    match a with
    | ⟨0, _⟩ => show win3_6.index t (0 : Fin 2) * 10000 + 1 * p.val = t.val * 10000 + p.val; omega
    | ⟨1, _⟩ => show win3_6.index t (1 : Fin 2) * 64 + 1 * q.val = q.val; omega
  rw [hemb]
  show _ = lin (V c main_v136) (V c main_v176) (V c main_v183) (ix2 (⟨t.val * 10000 + p.val, by omega⟩ : Fin 200000) q)
    + lin (V c main_v174) (V c main_v180) (V c main_v184) (ix2 (⟨t.val * 10000 + p.val, by omega⟩ : Fin 200000) q)
  refine congrArg₂ (· + ·) (lin_block _ _ _ _ _ _ _ p q (fun k => ?_) (fun k => ?_) ?_) (lin_block _ _ _ _ _ _ _ p q (fun k => ?_) (fun k => ?_) ?_)
  · show V c main_v136 (((cfg3.win 0).blk t).view.emb (ix2 p k)) = V c main_v136 (ix2 (⟨t.val * 10000 + p.val, by omega⟩ : Fin 200000) k)
    refine congrArg (V c main_v136) (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * k.val = k.val; omega
  · show V c main_v176 (((cfg3.win 1).blk t).view.emb (ix2 k q)) = V c main_v176 (ix2 k q)
    refine congrArg (V c main_v176) (funext fun a => Fin.ext ?_)
    match a with
    | ⟨0, _⟩ => show win3_1.index t (0 : Fin 2) * 64 + 1 * k.val = k.val; omega
    | ⟨1, _⟩ => show win3_1.index t (1 : Fin 2) * 64 + 1 * q.val = q.val; omega
  · show V c main_v183 (((cfg3.win 2).blk t).view.emb (ix2 (0 : Fin 1) q)) = V c main_v183 (ix2 (0 : Fin 1) q)
    refine congrArg (V c main_v183) (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega
  · show V c main_v174 (((cfg3.win 3).blk t).view.emb (ix2 p k)) = V c main_v174 (ix2 (⟨t.val * 10000 + p.val, by omega⟩ : Fin 200000) k)
    refine congrArg (V c main_v174) (funext fun a => Fin.ext ?_)
    match a with
    | ⟨0, _⟩ => show win3_3.index t (0 : Fin 2) * 10000 + 1 * p.val = t.val * 10000 + p.val; omega
    | ⟨1, _⟩ => show win3_3.index t (1 : Fin 2) * 64 + 1 * k.val = k.val; omega
  · show V c main_v180 (((cfg3.win 4).blk t).view.emb (ix2 k q)) = V c main_v180 (ix2 k q)
    refine congrArg (V c main_v180) (funext fun a => Fin.ext ?_)
    match a with
    | ⟨0, _⟩ => show win3_4.index t (0 : Fin 2) * 64 + 1 * k.val = k.val; omega
    | ⟨1, _⟩ => show win3_4.index t (1 : Fin 2) * 64 + 1 * q.val = q.val; omega
  · show V c main_v184 (((cfg3.win 5).blk t).view.emb (ix2 (0 : Fin 1) q)) = V c main_v184 (ix2 (0 : Fin 1) q)
    refine congrArg (V c main_v184) (funext fun a => Fin.ext ?_)
    match a with
    | ⟨0, _⟩ => show win3_5.index t (0 : Fin 2) * 1 + 1 * 0 = 0; omega
    | ⟨1, _⟩ => show win3_5.index t (1 : Fin 2) * 64 + 1 * q.val = q.val; omega

/-- An index of the output is in point t's block iff its row is among the block's 10000 rows. -/
theorem mem_blk (t : Fin cfg3.N) (i : S200000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v185).slice (win3_6.rect t)).set ↔ _
  rw [View.set_slice_whole, Rect.mem_set_unit]
  exact Iff.rfl

/-- Row r of the output is written by the point r / 10000. -/
theorem cover (i : S200000x64.Idx) : ∃ t : Fin cfg3.N, (cfg3.win 6).flush t = true ∧ i ∈ ((cfg3.win 6).blk t).view.set := by
  have hi0 : (i 0).val < 200000 := (i 0).isLt
  have hi1 : (i 1).val < 64 := (i 1).isLt
  have hN : (i 0).val / 10000 < grid3.N := by rw [N_3]; omega
  refine ⟨⟨(i 0).val / 10000, hN⟩, flush3_6 _, ?_⟩
  rw [mem_blk]
  obtain ⟨e0, e1, e2, e3, e4, e5, e6, e7, e8, e9, e10, e11, e12, e13⟩ := idx_facts ⟨(i 0).val / 10000, hN⟩
  intro a
  match a with
  | ⟨0, _⟩ =>
    show win3_6.index ⟨(i 0).val / 10000, hN⟩ (0 : Fin 2) * 10000 ≤ (i 0).val ∧ (i 0).val < win3_6.index ⟨(i 0).val / 10000, hN⟩ (0 : Fin 2) * 10000 + 10000
    rw [e12]; show (i 0).val / 10000 * 10000 ≤ (i 0).val ∧ (i 0).val < (i 0).val / 10000 * 10000 + 10000; omega
  | ⟨1, _⟩ =>
    show win3_6.index ⟨(i 0).val / 10000, hN⟩ (1 : Fin 2) * 64 ≤ (i 1).val ∧ (i 1).val < win3_6.index ⟨(i 0).val / 10000, hN⟩ (1 : Fin 2) * 64 + 64
    rw [e13]; omega

/-- The output array after the launch is the sum of the two layers of the arrays the launch found. -/
theorem final (c : Dev nD) : (dat3 V c).arrAt 6 cfg3.N
    = lin2 (V c main_v136) (V c main_v176) (V c main_v183) (V c main_v174) (V c main_v180) (V c main_v184) :=
  (dat3 V c).arrAt_eq_of_cover 6 _ (fun t _ => flushed_eq V c t) cover

end Cert.KernelIdeal.Region3

end
-- ==== Proof.Region4.lean ====
/-
  The third one-product launch (the second layer of the first kind of item nodes): what its output array holds after the launch.
  The grid has 10 points; point t stages rows 10000 t ... 10000 t + 9999 of the normalised aggregate H, the whole
  64 x 64 weight and the 1 x 64 bias, computes the layer on the block and writes the block back to the same rows of the
  output.  Row P of the layer depends on row P of H only, so the block written at point t is rows 10000 t ... of the layer
  of the WHOLE arrays, and the ten blocks cover the output: the output array is lin H W B.
-/
import proofs.«154951_j87230785782112_1_alg».proof.Proof.Gen.KernelIdeal.Frame
import proofs.«154951_j87230785782112_1_alg».proof.Proof.Linear
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Linear

variable (V : (c : Dev nD) → (b : Ref sig .tc) → Buf (Elt Ideal) ((c : Thread nD τ).loc b))

/-- The block product's dimension numbers spell a plain product with 64 terms. -/
theorem plain : Cert.LibMatmulSum.Plain dot_S10000x64_S64x64_S10000x64_1_0_0_1_n_n :=
  ⟨rfl, rfl, fun _ _ => rfl, fun _ _ => rfl, fun _ _ => rfl, fun _ _ => rfl⟩

/-- The body's arithmetic on a block is the layer on the block. -/
theorem pay (x0 : Vec Ideal S10000x64 .f32) (x1 : Vec Ideal S64x64 .f32) (x2 : Vec Ideal S1x64 .f32) :
    k4_pay1 (F := Ideal) x0 x1 x2 = lin x0 x1 x2 :=
  unit_lin plain _ _ _ _ _ x0 x1 x2

theorem hz : (![0, 0] : Fin 2 → Nat) = fun _ => 0 := funext fun a => by fin_cases a <;> rfl

/-- The index maps over the grid: the row block of H and of the output is the point's number, every other block index 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the layer of the whole arrays. -/
theorem flushed_eq (c : Dev nD) (t : Fin cfg4.N) :
    (dat4 V c).flushed 3 t = ((cfg4.win 3).blk t).view.read (Elt Ideal) (lin (V c main_v117) (V c main_v187) (V c main_v190)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7⟩ := idx_facts t
  have ht : t.val < 10 := by have h : t.val < grid4.N := t.isLt; rw [N_4] at h; exact h
  funext j
  obtain ⟨p, q, rfl⟩ : ∃ (p : Fin 10000) (q : Fin 64), j = ix2 p q := ⟨j 0, j 1, eq_ix2 j⟩
  show lin (iblk4 V c 0 t) (iblk4 V c 1 t) (iblk4 V c 2 t) (ix2 p q)
    = lin (V c main_v117) (V c main_v187) (V c main_v190) (((cfg4.win 3).blk t).view.emb (ix2 p q))
  have hemb : ((cfg4.win 3).blk t).view.emb (ix2 p q) = ix2 (⟨t.val * 10000 + p.val, by omega⟩ : Fin 100000) q := by
    funext a; apply Fin.ext
    match a with
    | ⟨0, _⟩ => show win4_3.index t (0 : Fin 2) * 10000 + 1 * p.val = t.val * 10000 + p.val; omega
    | ⟨1, _⟩ => show win4_3.index t (1 : Fin 2) * 64 + 1 * q.val = q.val; omega
  rw [hemb]
  refine lin_block _ _ _ _ _ _ _ p q (fun k => ?_) (fun k => ?_) ?_
  · show V c main_v117 (((cfg4.win 0).blk t).view.emb (ix2 p k)) = V c main_v117 (ix2 (⟨t.val * 10000 + p.val, by omega⟩ : Fin 100000) k)
    refine congrArg (V c main_v117) (funext fun a => Fin.ext ?_)
    match a with
    | ⟨0, _⟩ => show win4_0.index t (0 : Fin 2) * 10000 + 1 * p.val = t.val * 10000 + p.val; omega
    | ⟨1, _⟩ => show win4_0.index t (1 : Fin 2) * 64 + 1 * k.val = k.val; omega
  · show V c main_v187 (((cfg4.win 1).blk t).view.emb (ix2 k q)) = V c main_v187 (ix2 k q)
    refine congrArg (V c main_v187) (funext fun a => Fin.ext ?_)
    match a with
    | ⟨0, _⟩ => show win4_1.index t (0 : Fin 2) * 64 + 1 * k.val = k.val; omega
    | ⟨1, _⟩ => show win4_1.index t (1 : Fin 2) * 64 + 1 * q.val = q.val; omega
  · show V c main_v190 (((cfg4.win 2).blk t).view.emb (ix2 (0 : Fin 1) q)) = V c main_v190 (ix2 (0 : Fin 1) q)
    refine congrArg (V c main_v190) (funext fun a => Fin.ext ?_)
    match a with
    | ⟨0, _⟩ => show win4_2.index t (0 : Fin 2) * 1 + 1 * 0 = 0; omega
    | ⟨1, _⟩ => show win4_2.index t (1 : Fin 2) * 64 + 1 * q.val = q.val; omega

/-- An index of the output is in point t's block iff its row is among the block's 10000 rows. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v191).slice (win4_3.rect t)).set ↔ _
  rw [View.set_slice_whole, Rect.mem_set_unit]
  exact Iff.rfl

/-- Row r of the output is written by the point r / 10000. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : (i 0).val / 10000 < grid4.N := by rw [N_4]; omega
  refine ⟨⟨(i 0).val / 10000, hN⟩, flush4_3 _, ?_⟩
  rw [mem_blk]
  obtain ⟨e0, e1, e2, e3, e4, e5, e6, e7⟩ := idx_facts ⟨(i 0).val / 10000, hN⟩
  intro a
  match a with
  | ⟨0, _⟩ =>
    show win4_3.index ⟨(i 0).val / 10000, hN⟩ (0 : Fin 2) * 10000 ≤ (i 0).val ∧ (i 0).val < win4_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win4_3.index ⟨(i 0).val / 10000, hN⟩ (1 : Fin 2) * 64 ≤ (i 1).val ∧ (i 1).val < win4_3.index ⟨(i 0).val / 10000, hN⟩ (1 : Fin 2) * 64 + 64
    rw [e7]; omega

/-- The output array after the launch is the layer of the arrays the launch found. -/
theorem final (c : Dev nD) : (dat4 V c).arrAt 3 cfg4.N = lin (V c main_v117) (V c main_v187) (V c main_v190) :=
  (dat4 V c).arrAt_eq_of_cover 3 _ (fun t _ => flushed_eq V c t) cover

end Cert.KernelIdeal.Region4

end
-- ==== Proof.Region5.lean ====
/-
  The fourth one-product launch (the second layer of the second kind of item nodes): what its output array holds after the launch.
  The grid has 10 points; point t stages rows 10000 t ... 10000 t + 9999 of the normalised aggregate H, the whole
  64 x 64 weight and the 1 x 64 bias, computes the layer on the block and writes the block back to the same rows of the
  output.  Row P of the layer depends on row P of H only, so the block written at point t is rows 10000 t ... of the layer
  of the WHOLE arrays, and the ten blocks cover the output: the output array is lin H W B.
-/
import proofs.«154951_j87230785782112_1_alg».proof.Proof.Gen.KernelIdeal.Frame
import proofs.«154951_j87230785782112_1_alg».proof.Proof.Linear
import Idealize.ShloMosaic.Lib.Pipeline.Value

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Linear

variable (V : (c : Dev nD) → (b : Ref sig .tc) → Buf (Elt Ideal) ((c : Thread nD τ).loc b))

/-- The block product's dimension numbers spell a plain product with 64 terms. -/
theorem plain : Cert.LibMatmulSum.Plain dot_S10000x64_S64x64_S10000x64_1_0_0_1_n_n :=
  ⟨rfl, rfl, fun _ _ => rfl, fun _ _ => rfl, fun _ _ => rfl, fun _ _ => rfl⟩

/-- The body's arithmetic on a block is the layer on the block. -/
theorem pay (x0 : Vec Ideal S10000x64 .f32) (x1 : Vec Ideal S64x64 .f32) (x2 : Vec Ideal S1x64 .f32) :
    k5_pay1 (F := Ideal) x0 x1 x2 = lin x0 x1 x2 :=
  unit_lin plain _ _ _ _ _ x0 x1 x2

theorem hz : (![0, 0] : Fin 2 → Nat) = fun _ => 0 := funext fun a => by fin_cases a <;> rfl

/-- The index maps over the grid: the row block of H and of the output is the point's number, every other block index 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the layer of the whole arrays. -/
theorem flushed_eq (c : Dev nD) (t : Fin cfg5.N) :
    (dat5 V c).flushed 3 t = ((cfg5.win 3).blk t).view.read (Elt Ideal) (lin (V c main_v155) (V c main_v193) (V c main_v196)) := by
  show (cfg5.win 3).cut (grid5.coords t) ((dat5 V c).after 3 t) = _
  rw [after5_3]
  unfold out5_3
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7⟩ := idx_facts t
  have ht : t.val < 10 := by have h : t.val < grid5.N := t.isLt; rw [N_5] at h; exact h
  funext j
  obtain ⟨p, q, rfl⟩ : ∃ (p : Fin 10000) (q : Fin 64), j = ix2 p q := ⟨j 0, j 1, eq_ix2 j⟩
  show lin (iblk5 V c 0 t) (iblk5 V c 1 t) (iblk5 V c 2 t) (ix2 p q)
    = lin (V c main_v155) (V c main_v193) (V c main_v196) (((cfg5.win 3).blk t).view.emb (ix2 p q))
  have hemb : ((cfg5.win 3).blk t).view.emb (ix2 p q) = ix2 (⟨t.val * 10000 + p.val, by omega⟩ : Fin 100000) q := by
    funext a; apply Fin.ext
    match a with
    | ⟨0, _⟩ => show win5_3.index t (0 : Fin 2) * 10000 + 1 * p.val = t.val * 10000 + p.val; omega
    | ⟨1, _⟩ => show win5_3.index t (1 : Fin 2) * 64 + 1 * q.val = q.val; omega
  rw [hemb]
  refine lin_block _ _ _ _ _ _ _ p q (fun k => ?_) (fun k => ?_) ?_
  · show V c main_v155 (((cfg5.win 0).blk t).view.emb (ix2 p k)) = V c main_v155 (ix2 (⟨t.val * 10000 + p.val, by omega⟩ : Fin 100000) k)
    refine congrArg (V c main_v155) (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * k.val = k.val; omega
  · show V c main_v193 (((cfg5.win 1).blk t).view.emb (ix2 k q)) = V c main_v193 (ix2 k q)
    refine congrArg (V c main_v193) (funext fun a => Fin.ext ?_)
    match a with
    | ⟨0, _⟩ => show win5_1.index t (0 : Fin 2) * 64 + 1 * k.val = k.val; omega
    | ⟨1, _⟩ => show win5_1.index t (1 : Fin 2) * 64 + 1 * q.val = q.val; omega
  · show V c main_v196 (((cfg5.win 2).blk t).view.emb (ix2 (0 : Fin 1) q)) = V c main_v196 (ix2 (0 : Fin 1) q)
    refine congrArg (V c main_v196) (funext fun a => Fin.ext ?_)
    match a with
    | ⟨0, _⟩ => show win5_2.index t (0 : Fin 2) * 1 + 1 * 0 = 0; omega
    | ⟨1, _⟩ => show win5_2.index t (1 : Fin 2) * 64 + 1 * q.val = q.val; omega

/-- An index of the output is in point t's block iff its row is among the block's 10000 rows. -/
theorem mem_blk (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v197).slice (win5_3.rect t)).set ↔ _
  rw [View.set_slice_whole, Rect.mem_set_unit]
  exact Iff.rfl

/-- Row r of the output is written by the point r / 10000. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : (i 0).val / 10000 < grid5.N := by rw [N_5]; omega
  refine ⟨⟨(i 0).val / 10000, hN⟩, flush5_3 _, ?_⟩
  rw [mem_blk]
  obtain ⟨e0, e1, e2, e3, e4, e5, e6, e7⟩ := idx_facts ⟨(i 0).val / 10000, hN⟩
  intro a
  match a with
  | ⟨0, _⟩ =>
    show win5_3.index ⟨(i 0).val / 10000, hN⟩ (0 : Fin 2) * 10000 ≤ (i 0).val ∧ (i 0).val < win5_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win5_3.index ⟨(i 0).val / 10000, hN⟩ (1 : Fin 2) * 64 ≤ (i 1).val ∧ (i 1).val < win5_3.index ⟨(i 0).val / 10000, hN⟩ (1 : Fin 2) * 64 + 64
    rw [e7]; omega

/-- The output array after the launch is the layer of the arrays the launch found. -/
theorem final (c : Dev nD) : (dat5 V c).arrAt 3 cfg5.N = lin (V c main_v155) (V c main_v193) (V c main_v196) :=
  (dat5 V c).arrAt_eq_of_cover 3 _ (fun t _ => flushed_eq V c t) cover

end Cert.KernelIdeal.Region5

end
-- ==== Proof.Model.lean ====
/-
  The model, as one function of the inputs.  Three kinds of nodes: 200000 users and two kinds of items, 100000 each, all
  with 64 features; four relations of 2000000 edges each (users to items of the first kind, those items back to users,
  users to items of the second kind, and those back to users), each given by a source and a destination index per edge.

  One relation's message passing is the NORMALISED AGGREGATE: every destination node receives the sum of the feature rows of
  the sources of its incoming edges (a row gather followed by a row scatter-add into zeros), divided by its in-degree, the
  in-degree counted the same way (ones scatter-added into zeros) and replaced by 1 where it is smaller.  A source index
  below zero counts from the end, as array indexing does: n is added to it.

  A relation's LINEAR LAYER is  H W + b  with W one of the four 64 x 64 slices of the weights and b one of the four bias
  rows.  A layer of the network sends users to the sum of the two relations arriving at users, and each kind of items to
  its one relation.  The network is two such layers, the second fed by the first.

  Everything is spelt with the host operations and the dimension records of the printed reference program, at any float
  type: the reference's result terms are these functions by unfolding.
-/
import proofs.«154951_j87230785782112_1_alg».proof.Proof.Gen.ReferenceIdeal

noncomputable section

namespace Cert.Model

open Idealize.ShloMosaic Cert.ReferenceIdeal Cert.ReferenceIdeal.Gen

variable {F : FTy → Type} [FloatOps F]

/-- An edge's index, counted from the end when negative. -/
abbrev wrapIdx (n : BitVec 32) (s : (⟨S2000000, .i32⟩ : BufTy).Contents (Elt F)) : (⟨S2000000, .i32⟩ : BufTy).Contents (Elt F) :=
  select (cmpi .slt s (broadcastInDim S2000000 ![] bcast_S_S2000000 (constantI S_ 32 0#32)))
    (addi s (broadcastInDim S2000000 ![] bcast_S_S2000000 (constantI S_ 32 n))) s

/-- The per-edge indices as a column, the form gather and scatter take. -/
abbrev col (s : (⟨S2000000, .i32⟩ : BufTy).Contents (Elt F)) : (⟨S2000000x1, .i32⟩ : BufTy).Contents (Elt F) :=
  broadcastInDim S2000000x1 ![0] bcast_S2000000_S2000000x1_0 s

/-- The normalised aggregate of a relation from users (200000 rows) to one kind of items (100000 rows). -/
def aggItems (x : (⟨S200000x64, .f32⟩ : BufTy).Contents (Elt F)) (src dst : (⟨S2000000, .i32⟩ : BufTy).Contents (Elt F)) :
    (⟨S100000x64, .f32⟩ : BufTy).Contents (Elt F) :=
  Host.divf
    (Host.scatterAdd scatter_S100000x64_S2000000x1_S2000000x64_1_0_0_1
      (broadcastInDim S100000x64 ![] bcast_S_S100000x64 (constant S_ .f32 0x00000000#32)) (col dst)
      (Host.gather gather_S200000x64_S2000000x1_S2000000x64_1_0_n_n_0_1_164 x (col (wrapIdx 200000#32 src))))
    (broadcastInDim S100000x64 ![0, 1] bcast_S100000x1_S100000x64_0_1 (broadcastInDim S100000x1 ![0] bcast_S100000_S100000x1_0
      (maximumf
        (Host.scatterAdd scatter_S100000_S2000000x1_S2000000_n_0_0_1
          (broadcastInDim S100000 ![] bcast_S_S100000 (constant S_ .f32 0x00000000#32)) (col dst)
          (broadcastInDim S2000000 ![] bcast_S_S2000000 (constant S_ .f32 0x3F800000#32)))
        (broadcastInDim S100000 ![] bcast_S_S100000 (constant S_ .f32 0x3F800000#32)))))

/-- The normalised aggregate of a relation from one kind of items (100000 rows) to users (200000 rows). -/
def aggUsers (x : (⟨S100000x64, .f32⟩ : BufTy).Contents (Elt F)) (src dst : (⟨S2000000, .i32⟩ : BufTy).Contents (Elt F)) :
    (⟨S200000x64, .f32⟩ : BufTy).Contents (Elt F) :=
  Host.divf
    (Host.scatterAdd scatter_S200000x64_S2000000x1_S2000000x64_1_0_0_1
      (broadcastInDim S200000x64 ![] bcast_S_S200000x64 (constant S_ .f32 0x00000000#32)) (col dst)
      (Host.gather gather_S100000x64_S2000000x1_S2000000x64_1_0_n_n_0_1_164 x (col (wrapIdx 100000#32 src))))
    (broadcastInDim S200000x64 ![0, 1] bcast_S200000x1_S200000x64_0_1 (broadcastInDim S200000x1 ![0] bcast_S200000_S200000x1_0
      (maximumf
        (Host.scatterAdd scatter_S200000_S2000000x1_S2000000_n_0_0_1
          (broadcastInDim S200000 ![] bcast_S_S200000 (constant S_ .f32 0x00000000#32)) (col dst)
          (broadcastInDim S2000000 ![] bcast_S_S2000000 (constant S_ .f32 0x3F800000#32)))
        (broadcastInDim S200000 ![] bcast_S_S200000 (constant S_ .f32 0x3F800000#32)))))

/-! The four relations' weights and bias rows, cut out of the stacked arrays. -/

def w0 (Wt : (⟨S4x64x64, .f32⟩ : BufTy).Contents (Elt F)) : (⟨S64x64, .f32⟩ : BufTy).Contents (Elt F) :=
  shapeCast _ (extractStridedSlice S1x64x64 ![0, 0, 0] Wt slices_S4x64x64_S1x64x64_0_0_0) shapeCasts_S1x64x64_S64x64
def w1 (Wt : (⟨S4x64x64, .f32⟩ : BufTy).Contents (Elt F)) : (⟨S64x64, .f32⟩ : BufTy).Contents (Elt F) :=
  shapeCast _ (extractStridedSlice S1x64x64 ![1, 0, 0] Wt slices_S4x64x64_S1x64x64_1_0_0) shapeCasts_S1x64x64_S64x64
def w2 (Wt : (⟨S4x64x64, .f32⟩ : BufTy).Contents (Elt F)) : (⟨S64x64, .f32⟩ : BufTy).Contents (Elt F) :=
  shapeCast _ (extractStridedSlice S1x64x64 ![2, 0, 0] Wt slices_S4x64x64_S1x64x64_2_0_0) shapeCasts_S1x64x64_S64x64
def w3 (Wt : (⟨S4x64x64, .f32⟩ : BufTy).Contents (Elt F)) : (⟨S64x64, .f32⟩ : BufTy).Contents (Elt F) :=
  shapeCast _ (extractStridedSlice S1x64x64 ![3, 0, 0] Wt slices_S4x64x64_S1x64x64_3_0_0) shapeCasts_S1x64x64_S64x64
def b0 (bt : (⟨S4x64, .f32⟩ : BufTy).Contents (Elt F)) : (⟨S64, .f32⟩ : BufTy).Contents (Elt F) :=
  shapeCast _ (extractStridedSlice S1x64 ![0, 0] bt slices_S4x64_S1x64_0_0) shapeCasts_S1x64_S64
def b1 (bt : (⟨S4x64, .f32⟩ : BufTy).Contents (Elt F)) : (⟨S64, .f32⟩ : BufTy).Contents (Elt F) :=
  shapeCast _ (extractStridedSlice S1x64 ![1, 0] bt slices_S4x64_S1x64_1_0) shapeCasts_S1x64_S64
def b2 (bt : (⟨S4x64, .f32⟩ : BufTy).Contents (Elt F)) : (⟨S64, .f32⟩ : BufTy).Contents (Elt F) :=
  shapeCast _ (extractStridedSlice S1x64 ![2, 0] bt slices_S4x64_S1x64_2_0) shapeCasts_S1x64_S64
def b3 (bt : (⟨S4x64, .f32⟩ : BufTy).Contents (Elt F)) : (⟨S64, .f32⟩ : BufTy).Contents (Elt F) :=
  shapeCast _ (extractStridedSlice S1x64 ![3, 0] bt slices_S4x64_S1x64_3_0) shapeCasts_S1x64_S64

/-- A relation's linear layer on 100000 item rows:  H W + b, the bias laid along every row. -/
def linItems (H : (⟨S100000x64, .f32⟩ : BufTy).Contents (Elt F)) (Wm : (⟨S64x64, .f32⟩ : BufTy).Contents (Elt F))
    (b : (⟨S64, .f32⟩ : BufTy).Contents (Elt F)) : (⟨S100000x64, .f32⟩ : BufTy).Contents (Elt F) :=
  addf (Host.dotGeneral dot_S100000x64_S64x64_S100000x64_1_0_0_1_n_n none H Wm)
    (broadcastInDim S100000x64 ![0, 1] bcast_S1x64_S100000x64_0_1 (broadcastInDim S1x64 ![1] bcast_S64_S1x64_1 b))

/-- A relation's linear layer on 200000 user rows. -/
def linUsers (H : (⟨S200000x64, .f32⟩ : BufTy).Contents (Elt F)) (Wm : (⟨S64x64, .f32⟩ : BufTy).Contents (Elt F))
    (b : (⟨S64, .f32⟩ : BufTy).Contents (Elt F)) : (⟨S200000x64, .f32⟩ : BufTy).Contents (Elt F) :=
  addf (Host.dotGeneral dot_S200000x64_S64x64_S200000x64_1_0_0_1_n_n none H Wm)
    (broadcastInDim S200000x64 ![0, 1] bcast_S1x64_S200000x64_0_1 (broadcastInDim S1x64 ![1] bcast_S64_S1x64_1 b))

/-- The inputs: the three feature arrays, a layer's stacked weights and biases are passed beside them; the eight edge arrays. -/
structure Edges (F : FTy → Type) [FloatOps F] where
  su2a : (⟨S2000000, .i32⟩ : BufTy).Contents (Elt F)
  du2a : (⟨S2000000, .i32⟩ : BufTy).Contents (Elt F)
  sa2u : (⟨S2000000, .i32⟩ : BufTy).Contents (Elt F)
  da2u : (⟨S2000000, .i32⟩ : BufTy).Contents (Elt F)
  su2b : (⟨S2000000, .i32⟩ : BufTy).Contents (Elt F)
  du2b : (⟨S2000000, .i32⟩ : BufTy).Contents (Elt F)
  sb2u : (⟨S2000000, .i32⟩ : BufTy).Contents (Elt F)
  db2u : (⟨S2000000, .i32⟩ : BufTy).Contents (Elt F)

/-- A layer's new user features: the two relations arriving at users, summed. -/
def layerU (xa xb : (⟨S100000x64, .f32⟩ : BufTy).Contents (Elt F)) (Wt : (⟨S4x64x64, .f32⟩ : BufTy).Contents (Elt F))
    (bt : (⟨S4x64, .f32⟩ : BufTy).Contents (Elt F)) (e : Edges F) : (⟨S200000x64, .f32⟩ : BufTy).Contents (Elt F) :=
  addf (linUsers (aggUsers xa e.sa2u e.da2u) (w1 Wt) (b1 bt)) (linUsers (aggUsers xb e.sb2u e.db2u) (w3 Wt) (b3 bt))

/-- A layer's new features of the first kind of items. -/
def layerA (xu : (⟨S200000x64, .f32⟩ : BufTy).Contents (Elt F)) (Wt : (⟨S4x64x64, .f32⟩ : BufTy).Contents (Elt F))
    (bt : (⟨S4x64, .f32⟩ : BufTy).Contents (Elt F)) (e : Edges F) : (⟨S100000x64, .f32⟩ : BufTy).Contents (Elt F) :=
  linItems (aggItems xu e.su2a e.du2a) (w0 Wt) (b0 bt)

/-- A layer's new features of the second kind of items. -/
def layerB (xu : (⟨S200000x64, .f32⟩ : BufTy).Contents (Elt F)) (Wt : (⟨S4x64x64, .f32⟩ : BufTy).Contents (Elt F))
    (bt : (⟨S4x64, .f32⟩ : BufTy).Contents (Elt F)) (e : Edges F) : (⟨S100000x64, .f32⟩ : BufTy).Contents (Elt F) :=
  linItems (aggItems xu e.su2b e.du2b) (w2 Wt) (b2 bt)

/-! The network: two layers, the second fed by the first.  Its three results, as functions of the fifteen inputs. -/

/-- The user features after two layers. -/
def outU (xu : (⟨S200000x64, .f32⟩ : BufTy).Contents (Elt F)) (xa xb : (⟨S100000x64, .f32⟩ : BufTy).Contents (Elt F))
    (W1 : (⟨S4x64x64, .f32⟩ : BufTy).Contents (Elt F)) (c1 : (⟨S4x64, .f32⟩ : BufTy).Contents (Elt F))
    (W2 : (⟨S4x64x64, .f32⟩ : BufTy).Contents (Elt F)) (c2 : (⟨S4x64, .f32⟩ : BufTy).Contents (Elt F)) (e : Edges F) :
    (⟨S200000x64, .f32⟩ : BufTy).Contents (Elt F) :=
  layerU (layerA xu W1 c1 e) (layerB xu W1 c1 e) W2 c2 e

/-- The features of the first kind of items after two layers. -/
def outA (xu : (⟨S200000x64, .f32⟩ : BufTy).Contents (Elt F)) (xa xb : (⟨S100000x64, .f32⟩ : BufTy).Contents (Elt F))
    (W1 : (⟨S4x64x64, .f32⟩ : BufTy).Contents (Elt F)) (c1 : (⟨S4x64, .f32⟩ : BufTy).Contents (Elt F))
    (W2 : (⟨S4x64x64, .f32⟩ : BufTy).Contents (Elt F)) (c2 : (⟨S4x64, .f32⟩ : BufTy).Contents (Elt F)) (e : Edges F) :
    (⟨S100000x64, .f32⟩ : BufTy).Contents (Elt F) :=
  layerA (layerU xa xb W1 c1 e) W2 c2 e

/-- The features of the second kind of items after two layers. -/
def outB (xu : (⟨S200000x64, .f32⟩ : BufTy).Contents (Elt F)) (xa xb : (⟨S100000x64, .f32⟩ : BufTy).Contents (Elt F))
    (W1 : (⟨S4x64x64, .f32⟩ : BufTy).Contents (Elt F)) (c1 : (⟨S4x64, .f32⟩ : BufTy).Contents (Elt F))
    (W2 : (⟨S4x64x64, .f32⟩ : BufTy).Contents (Elt F)) (c2 : (⟨S4x64, .f32⟩ : BufTy).Contents (Elt F)) (e : Edges F) :
    (⟨S100000x64, .f32⟩ : BufTy).Contents (Elt F) :=
  layerB (layerU xa xb W1 c1 e) W2 c2 e

end Cert.Model

end
-- ==== Proof.KHost.lean ====
/-
  The host operations between the kernel's launches, read as the model's functions.  Each stretch of host operations is
  applied to whatever the buffers hold when it starts (X); of what it leaves, the launches read the normalised
  aggregates of the four relations, the relations' weights, and their bias rows as 1 x 64 arrays.  The first stretch
  aggregates the input features, the fourth the first layer's results (the user features for both relations leaving
  users); the short stretches cut out the weight and bias of the launch that follows.
-/
import proofs.«154951_j87230785782112_1_alg».proof.Proof.Gen.KernelIdeal.Launch
import proofs.«154951_j87230785782112_1_alg».proof.Proof.Model
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- Stretch 0: users to the first kind of items. -/
theorem h0_v18 (X : Valuation τ sig (Elt F)) :
    after hostOps0 X (Proc.devRef .tc main_v18) = Cert.Model.aggItems (X (Proc.devRef .tc main_arg0)) (X (Proc.devRef .tc main_arg7)) (X (Proc.devRef .tc main_arg8)) := by
  simp only [hostOps0]
  after_results_simp
  rfl

set_option maxHeartbeats 4000000 in
/-- Stretch 0: the first kind of items to users. -/
theorem h0_v37 (X : Valuation τ sig (Elt F)) :
    after hostOps0 X (Proc.devRef .tc main_v37) = Cert.Model.aggUsers (X (Proc.devRef .tc main_arg1)) (X (Proc.devRef .tc main_arg9)) (X (Proc.devRef .tc main_arg10)) := by
  simp only [hostOps0]
  after_results_simp
  rfl

set_option maxHeartbeats 4000000 in
/-- Stretch 0: users to the second kind of items. -/
theorem h0_v56 (X : Valuation τ sig (Elt F)) :
    after hostOps0 X (Proc.devRef .tc main_v56) = Cert.Model.aggItems (X (Proc.devRef .tc main_arg0)) (X (Proc.devRef .tc main_arg11)) (X (Proc.devRef .tc main_arg12)) := by
  simp only [hostOps0]
  after_results_simp
  rfl

set_option maxHeartbeats 4000000 in
/-- Stretch 0: the second kind of items to users. -/
theorem h0_v75 (X : Valuation τ sig (Elt F)) :
    after hostOps0 X (Proc.devRef .tc main_v75) = Cert.Model.aggUsers (X (Proc.devRef .tc main_arg2)) (X (Proc.devRef .tc main_arg13)) (X (Proc.devRef .tc main_arg14)) := by
  simp only [hostOps0]
  after_results_simp
  rfl

set_option maxHeartbeats 4000000 in
/-- Stretch 0: weight 1. -/
theorem h0_v77 (X : Valuation τ sig (Elt F)) :
    after hostOps0 X (Proc.devRef .tc main_v77) = Cert.Model.w1 (X (Proc.devRef .tc main_arg3)) := by
  simp only [hostOps0]
  after_results_simp
  rfl

set_option maxHeartbeats 4000000 in
/-- Stretch 0: weight 3. -/
theorem h0_v81 (X : Valuation τ sig (Elt F)) :
    after hostOps0 X (Proc.devRef .tc main_v81) = Cert.Model.w3 (X (Proc.devRef .tc main_arg3)) := by
  simp only [hostOps0]
  after_results_simp
  rfl

set_option maxHeartbeats 4000000 in
/-- Stretch 0: bias 1 as a row. -/
theorem h0_v84 (X : Valuation τ sig (Elt F)) :
    after hostOps0 X (Proc.devRef .tc main_v84) = shapeCast _ (Cert.Model.b1 (X (Proc.devRef .tc main_arg4))) shapeCasts_S64_S1x64 := by
  simp only [hostOps0]
  after_results_simp
  rfl

set_option maxHeartbeats 4000000 in
/-- Stretch 0: bias 3 as a row. -/
theorem h0_v85 (X : Valuation τ sig (Elt F)) :
    after hostOps0 X (Proc.devRef .tc main_v85) = shapeCast _ (Cert.Model.b3 (X (Proc.devRef .tc main_arg4))) shapeCasts_S64_S1x64 := by
  simp only [hostOps0]
  after_results_simp
  rfl

set_option maxHeartbeats 4000000 in
/-- Stretch 1: weight 0. -/
theorem h1_v88 (X : Valuation τ sig (Elt F)) :
    after hostOps1 X (Proc.devRef .tc main_v88) = Cert.Model.w0 (X (Proc.devRef .tc main_arg3)) := by
  simp only [hostOps1]
  after_results_simp
  rfl

set_option maxHeartbeats 4000000 in
/-- Stretch 1: bias 0 as a row. -/
theorem h1_v91 (X : Valuation τ sig (Elt F)) :
    after hostOps1 X (Proc.devRef .tc main_v91) = shapeCast _ (Cert.Model.b0 (X (Proc.devRef .tc main_arg4))) shapeCasts_S64_S1x64 := by
  simp only [hostOps1]
  after_results_simp
  rfl

set_option maxHeartbeats 4000000 in
/-- Stretch 2: weight 2. -/
theorem h2_v94 (X : Valuation τ sig (Elt F)) :
    after hostOps2 X (Proc.devRef .tc main_v94) = Cert.Model.w2 (X (Proc.devRef .tc main_arg3)) := by
  simp only [hostOps2]
  after_results_simp
  rfl

set_option maxHeartbeats 4000000 in
/-- Stretch 2: bias 2 as a row. -/
theorem h2_v97 (X : Valuation τ sig (Elt F)) :
    after hostOps2 X (Proc.devRef .tc main_v97) = shapeCast _ (Cert.Model.b2 (X (Proc.devRef .tc main_arg4))) shapeCasts_S64_S1x64 := by
  simp only [hostOps2]
  after_results_simp
  rfl

set_option maxHeartbeats 4000000 in
/-- Stretch 3: users to the first kind of items. -/
theorem h3_v117 (X : Valuation τ sig (Elt F)) :
    after hostOps3 X (Proc.devRef .tc main_v117) = Cert.Model.aggItems (X (Proc.devRef .tc main_v86)) (X (Proc.devRef .tc main_arg7)) (X (Proc.devRef .tc main_arg8)) := by
  simp only [hostOps3]
  after_results_simp
  rfl

set_option maxHeartbeats 4000000 in
/-- Stretch 3: the first kind of items to users. -/
theorem h3_v136 (X : Valuation τ sig (Elt F)) :
    after hostOps3 X (Proc.devRef .tc main_v136) = Cert.Model.aggUsers (X (Proc.devRef .tc main_v92)) (X (Proc.devRef .tc main_arg9)) (X (Proc.devRef .tc main_arg10)) := by
  simp only [hostOps3]
  after_results_simp
  rfl

set_option maxHeartbeats 4000000 in
/-- Stretch 3: users to the second kind of items. -/
theorem h3_v155 (X : Valuation τ sig (Elt F)) :
    after hostOps3 X (Proc.devRef .tc main_v155) = Cert.Model.aggItems (X (Proc.devRef .tc main_v86)) (X (Proc.devRef .tc main_arg11)) (X (Proc.devRef .tc main_arg12)) := by
  simp only [hostOps3]
  after_results_simp
  rfl

set_option maxHeartbeats 4000000 in
/-- Stretch 3: the second kind of items to users. -/
theorem h3_v174 (X : Valuation τ sig (Elt F)) :
    after hostOps3 X (Proc.devRef .tc main_v174) = Cert.Model.aggUsers (X (Proc.devRef .tc main_v98)) (X (Proc.devRef .tc main_arg13)) (X (Proc.devRef .tc main_arg14)) := by
  simp only [hostOps3]
  after_results_simp
  rfl

set_option maxHeartbeats 4000000 in
/-- Stretch 3: weight 1. -/
theorem h3_v176 (X : Valuation τ sig (Elt F)) :
    after hostOps3 X (Proc.devRef .tc main_v176) = Cert.Model.w1 (X (Proc.devRef .tc main_arg5)) := by
  simp only [hostOps3]
  after_results_simp
  rfl

set_option maxHeartbeats 4000000 in
/-- Stretch 3: weight 3. -/
theorem h3_v180 (X : Valuation τ sig (Elt F)) :
    after hostOps3 X (Proc.devRef .tc main_v180) = Cert.Model.w3 (X (Proc.devRef .tc main_arg5)) := by
  simp only [hostOps3]
  after_results_simp
  rfl

set_option maxHeartbeats 4000000 in
/-- Stretch 3: bias 1 as a row. -/
theorem h3_v183 (X : Valuation τ sig (Elt F)) :
    after hostOps3 X (Proc.devRef .tc main_v183) = shapeCast _ (Cert.Model.b1 (X (Proc.devRef .tc main_arg6))) shapeCasts_S64_S1x64 := by
  simp only [hostOps3]
  after_results_simp
  rfl

set_option maxHeartbeats 4000000 in
/-- Stretch 3: bias 3 as a row. -/
theorem h3_v184 (X : Valuation τ sig (Elt F)) :
    after hostOps3 X (Proc.devRef .tc main_v184) = shapeCast _ (Cert.Model.b3 (X (Proc.devRef .tc main_arg6))) shapeCasts_S64_S1x64 := by
  simp only [hostOps3]
  after_results_simp
  rfl

set_option maxHeartbeats 4000000 in
/-- Stretch 4: weight 0. -/
theorem h4_v187 (X : Valuation τ sig (Elt F)) :
    after hostOps4 X (Proc.devRef .tc main_v187) = Cert.Model.w0 (X (Proc.devRef .tc main_arg5)) := by
  simp only [hostOps4]
  after_results_simp
  rfl

set_option maxHeartbeats 4000000 in
/-- Stretch 4: bias 0 as a row. -/
theorem h4_v190 (X : Valuation τ sig (Elt F)) :
    after hostOps4 X (Proc.devRef .tc main_v190) = shapeCast _ (Cert.Model.b0 (X (Proc.devRef .tc main_arg6))) shapeCasts_S64_S1x64 := by
  simp only [hostOps4]
  after_results_simp
  rfl

set_option maxHeartbeats 4000000 in
/-- Stretch 5: weight 2. -/
theorem h5_v193 (X : Valuation τ sig (Elt F)) :
    after hostOps5 X (Proc.devRef .tc main_v193) = Cert.Model.w2 (X (Proc.devRef .tc main_arg5)) := by
  simp only [hostOps5]
  after_results_simp
  rfl

set_option maxHeartbeats 4000000 in
/-- Stretch 5: bias 2 as a row. -/
theorem h5_v196 (X : Valuation τ sig (Elt F)) :
    after hostOps5 X (Proc.devRef .tc main_v196) = shapeCast _ (Cert.Model.b2 (X (Proc.devRef .tc main_arg6))) shapeCasts_S64_S1x64 := by
  simp only [hostOps5]
  after_results_simp
  rfl

end Cert.KernelIdeal.HostRead

end
-- ==== Proof.LinModel.lean ====
/-
  The model's linear layers, read entry by entry: the host's spelling of  H W + b  (matrix product, bias vector laid along
  every row) is the function lin with the bias kept as a 1 x 64 row, for the 200000 user rows and for the 100000 item rows.
-/
import proofs.«154951_j87230785782112_1_alg».proof.Proof.Linear
import proofs.«154951_j87230785782112_1_alg».proof.Proof.Model

noncomputable section

namespace Cert.LinModel

open Idealize.ShloMosaic Idealize.ShloMosaic.ValueIdx Cert.ReferenceIdeal Cert.ReferenceIdeal.Gen Cert.Linear

/-- The reference's product over 200000 rows is a plain product with 64 terms. -/
theorem plainU : Cert.LibMatmulSum.Plain dot_S200000x64_S64x64_S200000x64_1_0_0_1_n_n :=
  ⟨rfl, rfl, fun _ _ => rfl, fun _ _ => rfl, fun _ _ => rfl, fun _ _ => rfl⟩

/-- The reference's product over 100000 rows is a plain product with 64 terms. -/
theorem plainI : Cert.LibMatmulSum.Plain dot_S100000x64_S64x64_S100000x64_1_0_0_1_n_n :=
  ⟨rfl, rfl, fun _ _ => rfl, fun _ _ => rfl, fun _ _ => rfl, fun _ _ => rfl⟩

/-- The user layer with its bias row cast from the bias vector is the model's user layer. -/
theorem lin_users (H : FVec Ideal S200000x64 .f32) (Wm : FVec Ideal S64x64 .f32) (b : FVec Ideal S64 .f32)
    (hc : (⟨1, ![64]⟩ : Shape).ShapeCasts ⟨2, ![1, 64]⟩) :
    lin H Wm (shapeCast ⟨2, ![1, 64]⟩ b hc) = Cert.Model.linUsers (F := Ideal) H Wm b :=
  (host_lin plainU bcast_S64_S1x64_1 bcast_S1x64_S200000x64_0_1 hc H Wm b).symm

/-- The item layer with its bias row cast from the bias vector is the model's item layer. -/
theorem lin_items (H : FVec Ideal S100000x64 .f32) (Wm : FVec Ideal S64x64 .f32) (b : FVec Ideal S64 .f32)
    (hc : (⟨1, ![64]⟩ : Shape).ShapeCasts ⟨2, ![1, 64]⟩) :
    lin H Wm (shapeCast ⟨2, ![1, 64]⟩ b hc) = Cert.Model.linItems (F := Ideal) H Wm b :=
  (host_lin plainI bcast_S64_S1x64_1 bcast_S1x64_S100000x64_0_1 hc H Wm b).symm

end Cert.LinModel

end
-- ==== Proof.KFold.lean ====
/-
  The kernel's buffers followed through the program.  The contents at each of the thirteen boundaries are a fold: a stretch
  of host operations applies its operations, a launch replaces its arrays by what its points wrote back.  A buffer that a
  stretch does not write, and that is not an array of a launch, passes through unchanged; so every argument array is its
  launch contents at every boundary, a stretch's results reach the launch that reads them, and a launch's output reaches the
  stretch, or the end, that reads it.  Read this way, the six launches' outputs are the network's layers: the first three the
  first layer's user and item features (the model's layerU, layerA, layerB of the inputs), the last three the same layers of
  those, which are the program's three results.
-/
import proofs.«154951_j87230785782112_1_alg».proof.Proof.Gen.KernelIdeal.Frame
import proofs.«154951_j87230785782112_1_alg».proof.Proof.Region0
import proofs.«154951_j87230785782112_1_alg».proof.Proof.Region1
import proofs.«154951_j87230785782112_1_alg».proof.Proof.Region2
import proofs.«154951_j87230785782112_1_alg».proof.Proof.Region3
import proofs.«154951_j87230785782112_1_alg».proof.Proof.Region4
import proofs.«154951_j87230785782112_1_alg».proof.Proof.Region5
import proofs.«154951_j87230785782112_1_alg».proof.Proof.KHost
import proofs.«154951_j87230785782112_1_alg».proof.Proof.LinModel

set_option maxRecDepth 16384

noncomputable section

namespace Cert.KernelIdeal.Fold

open Idealize.ShloMosaic Idealize.ShloMosaic.TcCoe Idealize.SL.Sem
open Cert.KernelIdeal Cert.KernelIdeal.Gen Cert.Linear Cert.LinModel

variable (m : (ℓ : Loc nD τ sig) → Buf (Elt Ideal) ℓ) (ρ : Dev nD → PrngReg)

/-- A buffer no operation of a stretch writes keeps its contents through the stretch. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The argument arrays at the boundaries where a stretch reads them -/

theorem W1_arg3 (c : Dev nD) : W1 m ρ c (Proc.devRef .tc main_arg3) = m ((c.tc : Thread nD τ).loc main_arg3) :=
  (by host_keep hostOps0 : W1 m ρ c (Proc.devRef .tc main_arg3) = W0 m ρ c (Proc.devRef .tc main_arg3)).trans rfl
theorem W1_arg4 (c : Dev nD) : W1 m ρ c (Proc.devRef .tc main_arg4) = m ((c.tc : Thread nD τ).loc main_arg4) :=
  (by host_keep hostOps0 : W1 m ρ c (Proc.devRef .tc main_arg4) = W0 m ρ c (Proc.devRef .tc main_arg4)).trans rfl
theorem W1_arg5 (c : Dev nD) : W1 m ρ c (Proc.devRef .tc main_arg5) = m ((c.tc : Thread nD τ).loc main_arg5) :=
  (by host_keep hostOps0 : W1 m ρ c (Proc.devRef .tc main_arg5) = W0 m ρ c (Proc.devRef .tc main_arg5)).trans rfl
theorem W1_arg6 (c : Dev nD) : W1 m ρ c (Proc.devRef .tc main_arg6) = m ((c.tc : Thread nD τ).loc main_arg6) :=
  (by host_keep hostOps0 : W1 m ρ c (Proc.devRef .tc main_arg6) = W0 m ρ c (Proc.devRef .tc main_arg6)).trans rfl
theorem W1_arg7 (c : Dev nD) : W1 m ρ c (Proc.devRef .tc main_arg7) = m ((c.tc : Thread nD τ).loc main_arg7) :=
  (by host_keep hostOps0 : W1 m ρ c (Proc.devRef .tc main_arg7) = W0 m ρ c (Proc.devRef .tc main_arg7)).trans rfl
theorem W1_arg8 (c : Dev nD) : W1 m ρ c (Proc.devRef .tc main_arg8) = m ((c.tc : Thread nD τ).loc main_arg8) :=
  (by host_keep hostOps0 : W1 m ρ c (Proc.devRef .tc main_arg8) = W0 m ρ c (Proc.devRef .tc main_arg8)).trans rfl
theorem W1_arg9 (c : Dev nD) : W1 m ρ c (Proc.devRef .tc main_arg9) = m ((c.tc : Thread nD τ).loc main_arg9) :=
  (by host_keep hostOps0 : W1 m ρ c (Proc.devRef .tc main_arg9) = W0 m ρ c (Proc.devRef .tc main_arg9)).trans rfl
theorem W1_arg10 (c : Dev nD) : W1 m ρ c (Proc.devRef .tc main_arg10) = m ((c.tc : Thread nD τ).loc main_arg10) :=
  (by host_keep hostOps0 : W1 m ρ c (Proc.devRef .tc main_arg10) = W0 m ρ c (Proc.devRef .tc main_arg10)).trans rfl
theorem W1_arg11 (c : Dev nD) : W1 m ρ c (Proc.devRef .tc main_arg11) = m ((c.tc : Thread nD τ).loc main_arg11) :=
  (by host_keep hostOps0 : W1 m ρ c (Proc.devRef .tc main_arg11) = W0 m ρ c (Proc.devRef .tc main_arg11)).trans rfl
theorem W1_arg12 (c : Dev nD) : W1 m ρ c (Proc.devRef .tc main_arg12) = m ((c.tc : Thread nD τ).loc main_arg12) :=
  (by host_keep hostOps0 : W1 m ρ c (Proc.devRef .tc main_arg12) = W0 m ρ c (Proc.devRef .tc main_arg12)).trans rfl
theorem W1_arg13 (c : Dev nD) : W1 m ρ c (Proc.devRef .tc main_arg13) = m ((c.tc : Thread nD τ).loc main_arg13) :=
  (by host_keep hostOps0 : W1 m ρ c (Proc.devRef .tc main_arg13) = W0 m ρ c (Proc.devRef .tc main_arg13)).trans rfl
theorem W1_arg14 (c : Dev nD) : W1 m ρ c (Proc.devRef .tc main_arg14) = m ((c.tc : Thread nD τ).loc main_arg14) :=
  (by host_keep hostOps0 : W1 m ρ c (Proc.devRef .tc main_arg14) = W0 m ρ c (Proc.devRef .tc main_arg14)).trans rfl
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)
theorem W2_arg8 (c : Dev nD) : W2 m ρ c (Proc.devRef .tc main_arg8) = m ((c.tc : Thread nD τ).loc main_arg8) :=
  (W2_of_ne m ρ c main_arg8 (by decide)).trans (W1_arg8 m ρ c)
theorem W2_arg9 (c : Dev nD) : W2 m ρ c (Proc.devRef .tc main_arg9) = m ((c.tc : Thread nD τ).loc main_arg9) :=
  (W2_of_ne m ρ c main_arg9 (by decide)).trans (W1_arg9 m ρ c)
theorem W2_arg10 (c : Dev nD) : W2 m ρ c (Proc.devRef .tc main_arg10) = m ((c.tc : Thread nD τ).loc main_arg10) :=
  (W2_of_ne m ρ c main_arg10 (by decide)).trans (W1_arg10 m ρ c)
theorem W2_arg11 (c : Dev nD) : W2 m ρ c (Proc.devRef .tc main_arg11) = m ((c.tc : Thread nD τ).loc main_arg11) :=
  (W2_of_ne m ρ c main_arg11 (by decide)).trans (W1_arg11 m ρ c)
theorem W2_arg12 (c : Dev nD) : W2 m ρ c (Proc.devRef .tc main_arg12) = m ((c.tc : Thread nD τ).loc main_arg12) :=
  (W2_of_ne m ρ c main_arg12 (by decide)).trans (W1_arg12 m ρ c)
theorem W2_arg13 (c : Dev nD) : W2 m ρ c (Proc.devRef .tc main_arg13) = m ((c.tc : Thread nD τ).loc main_arg13) :=
  (W2_of_ne m ρ c main_arg13 (by decide)).trans (W1_arg13 m ρ c)
theorem W2_arg14 (c : Dev nD) : W2 m ρ c (Proc.devRef .tc main_arg14) = m ((c.tc : Thread nD τ).loc main_arg14) :=
  (W2_of_ne m ρ c main_arg14 (by decide)).trans (W1_arg14 m ρ c)
theorem W3_arg3 (c : Dev nD) : W3 m ρ c (Proc.devRef .tc main_arg3) = m ((c.tc : Thread nD τ).loc main_arg3) :=
  (by host_keep hostOps1 : W3 m ρ c (Proc.devRef .tc main_arg3) = W2 m ρ c (Proc.devRef .tc main_arg3)).trans (W2_arg3 m ρ c)
theorem W3_arg4 (c : Dev nD) : W3 m ρ c (Proc.devRef .tc main_arg4) = m ((c.tc : Thread nD τ).loc main_arg4) :=
  (by host_keep hostOps1 : W3 m ρ c (Proc.devRef .tc main_arg4) = W2 m ρ c (Proc.devRef .tc main_arg4)).trans (W2_arg4 m ρ c)
theorem W3_arg5 (c : Dev nD) : W3 m ρ c (Proc.devRef .tc main_arg5) = m ((c.tc : Thread nD τ).loc main_arg5) :=
  (by host_keep hostOps1 : W3 m ρ c (Proc.devRef .tc main_arg5) = W2 m ρ c (Proc.devRef .tc main_arg5)).trans (W2_arg5 m ρ c)
theorem W3_arg6 (c : Dev nD) : W3 m ρ c (Proc.devRef .tc main_arg6) = m ((c.tc : Thread nD τ).loc main_arg6) :=
  (by host_keep hostOps1 : W3 m ρ c (Proc.devRef .tc main_arg6) = W2 m ρ c (Proc.devRef .tc main_arg6)).trans (W2_arg6 m ρ c)
theorem W3_arg7 (c : Dev nD) : W3 m ρ c (Proc.devRef .tc main_arg7) = m ((c.tc : Thread nD τ).loc main_arg7) :=
  (by host_keep hostOps1 : W3 m ρ c (Proc.devRef .tc main_arg7) = W2 m ρ c (Proc.devRef .tc main_arg7)).trans (W2_arg7 m ρ c)
theorem W3_arg8 (c : Dev nD) : W3 m ρ c (Proc.devRef .tc main_arg8) = m ((c.tc : Thread nD τ).loc main_arg8) :=
  (by host_keep hostOps1 : W3 m ρ c (Proc.devRef .tc main_arg8) = W2 m ρ c (Proc.devRef .tc main_arg8)).trans (W2_arg8 m ρ c)
theorem W3_arg9 (c : Dev nD) : W3 m ρ c (Proc.devRef .tc main_arg9) = m ((c.tc : Thread nD τ).loc main_arg9) :=
  (by host_keep hostOps1 : W3 m ρ c (Proc.devRef .tc main_arg9) = W2 m ρ c (Proc.devRef .tc main_arg9)).trans (W2_arg9 m ρ c)
theorem W3_arg10 (c : Dev nD) : W3 m ρ c (Proc.devRef .tc main_arg10) = m ((c.tc : Thread nD τ).loc main_arg10) :=
  (by host_keep hostOps1 : W3 m ρ c (Proc.devRef .tc main_arg10) = W2 m ρ c (Proc.devRef .tc main_arg10)).trans (W2_arg10 m ρ c)
theorem W3_arg11 (c : Dev nD) : W3 m ρ c (Proc.devRef .tc main_arg11) = m ((c.tc : Thread nD τ).loc main_arg11) :=
  (by host_keep hostOps1 : W3 m ρ c (Proc.devRef .tc main_arg11) = W2 m ρ c (Proc.devRef .tc main_arg11)).trans (W2_arg11 m ρ c)
theorem W3_arg12 (c : Dev nD) : W3 m ρ c (Proc.devRef .tc main_arg12) = m ((c.tc : Thread nD τ).loc main_arg12) :=
  (by host_keep hostOps1 : W3 m ρ c (Proc.devRef .tc main_arg12) = W2 m ρ c (Proc.devRef .tc main_arg12)).trans (W2_arg12 m ρ c)
theorem W3_arg13 (c : Dev nD) : W3 m ρ c (Proc.devRef .tc main_arg13) = m ((c.tc : Thread nD τ).loc main_arg13) :=
  (by host_keep hostOps1 : W3 m ρ c (Proc.devRef .tc main_arg13) = W2 m ρ c (Proc.devRef .tc main_arg13)).trans (W2_arg13 m ρ c)
theorem W3_arg14 (c : Dev nD) : W3 m ρ c (Proc.devRef .tc main_arg14) = m ((c.tc : Thread nD τ).loc main_arg14) :=
  (by host_keep hostOps1 : W3 m ρ c (Proc.devRef .tc main_arg14) = W2 m ρ c (Proc.devRef .tc main_arg14)).trans (W2_arg14 m ρ c)
theorem W4_arg3 (c : Dev nD) : W4 m ρ c (Proc.devRef .tc main_arg3) = m ((c.tc : Thread nD τ).loc main_arg3) :=
  (W4_of_ne m ρ c main_arg3 (by decide)).trans (W3_arg3 m ρ c)
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_arg7 (c : Dev nD) : W4 m ρ c (Proc.devRef .tc main_arg7) = m ((c.tc : Thread nD τ).loc main_arg7) :=
  (W4_of_ne m ρ c main_arg7 (by decide)).trans (W3_arg7 m ρ c)
theorem W4_arg8 (c : Dev nD) : W4 m ρ c (Proc.devRef .tc main_arg8) = m ((c.tc : Thread nD τ).loc main_arg8) :=
  (W4_of_ne m ρ c main_arg8 (by decide)).trans (W3_arg8 m ρ c)
theorem W4_arg9 (c : Dev nD) : W4 m ρ c (Proc.devRef .tc main_arg9) = m ((c.tc : Thread nD τ).loc main_arg9) :=
  (W4_of_ne m ρ c main_arg9 (by decide)).trans (W3_arg9 m ρ c)
theorem W4_arg10 (c : Dev nD) : W4 m ρ c (Proc.devRef .tc main_arg10) = m ((c.tc : Thread nD τ).loc main_arg10) :=
  (W4_of_ne m ρ c main_arg10 (by decide)).trans (W3_arg10 m ρ c)
theorem W4_arg11 (c : Dev nD) : W4 m ρ c (Proc.devRef .tc main_arg11) = m ((c.tc : Thread nD τ).loc main_arg11) :=
  (W4_of_ne m ρ c main_arg11 (by decide)).trans (W3_arg11 m ρ c)
theorem W4_arg12 (c : Dev nD) : W4 m ρ c (Proc.devRef .tc main_arg12) = m ((c.tc : Thread nD τ).loc main_arg12) :=
  (W4_of_ne m ρ c main_arg12 (by decide)).trans (W3_arg12 m ρ c)
theorem W4_arg13 (c : Dev nD) : W4 m ρ c (Proc.devRef .tc main_arg13) = m ((c.tc : Thread nD τ).loc main_arg13) :=
  (W4_of_ne m ρ c main_arg13 (by decide)).trans (W3_arg13 m ρ c)
theorem W4_arg14 (c : Dev nD) : W4 m ρ c (Proc.devRef .tc main_arg14) = m ((c.tc : Thread nD τ).loc main_arg14) :=
  (W4_of_ne m ρ c main_arg14 (by decide)).trans (W3_arg14 m ρ c)
theorem W5_arg5 (c : Dev nD) : W5 m ρ c (Proc.devRef .tc main_arg5) = m ((c.tc : Thread nD τ).loc main_arg5) :=
  (by host_keep hostOps2 : W5 m ρ c (Proc.devRef .tc main_arg5) = W4 m ρ c (Proc.devRef .tc main_arg5)).trans (W4_arg5 m ρ c)
theorem W5_arg6 (c : Dev nD) : W5 m ρ c (Proc.devRef .tc main_arg6) = m ((c.tc : Thread nD τ).loc main_arg6) :=
  (by host_keep hostOps2 : W5 m ρ c (Proc.devRef .tc main_arg6) = W4 m ρ c (Proc.devRef .tc main_arg6)).trans (W4_arg6 m ρ c)
theorem W5_arg7 (c : Dev nD) : W5 m ρ c (Proc.devRef .tc main_arg7) = m ((c.tc : Thread nD τ).loc main_arg7) :=
  (by host_keep hostOps2 : W5 m ρ c (Proc.devRef .tc main_arg7) = W4 m ρ c (Proc.devRef .tc main_arg7)).trans (W4_arg7 m ρ c)
theorem W5_arg8 (c : Dev nD) : W5 m ρ c (Proc.devRef .tc main_arg8) = m ((c.tc : Thread nD τ).loc main_arg8) :=
  (by host_keep hostOps2 : W5 m ρ c (Proc.devRef .tc main_arg8) = W4 m ρ c (Proc.devRef .tc main_arg8)).trans (W4_arg8 m ρ c)
theorem W5_arg9 (c : Dev nD) : W5 m ρ c (Proc.devRef .tc main_arg9) = m ((c.tc : Thread nD τ).loc main_arg9) :=
  (by host_keep hostOps2 : W5 m ρ c (Proc.devRef .tc main_arg9) = W4 m ρ c (Proc.devRef .tc main_arg9)).trans (W4_arg9 m ρ c)
theorem W5_arg10 (c : Dev nD) : W5 m ρ c (Proc.devRef .tc main_arg10) = m ((c.tc : Thread nD τ).loc main_arg10) :=
  (by host_keep hostOps2 : W5 m ρ c (Proc.devRef .tc main_arg10) = W4 m ρ c (Proc.devRef .tc main_arg10)).trans (W4_arg10 m ρ c)
theorem W5_arg11 (c : Dev nD) : W5 m ρ c (Proc.devRef .tc main_arg11) = m ((c.tc : Thread nD τ).loc main_arg11) :=
  (by host_keep hostOps2 : W5 m ρ c (Proc.devRef .tc main_arg11) = W4 m ρ c (Proc.devRef .tc main_arg11)).trans (W4_arg11 m ρ c)
theorem W5_arg12 (c : Dev nD) : W5 m ρ c (Proc.devRef .tc main_arg12) = m ((c.tc : Thread nD τ).loc main_arg12) :=
  (by host_keep hostOps2 : W5 m ρ c (Proc.devRef .tc main_arg12) = W4 m ρ c (Proc.devRef .tc main_arg12)).trans (W4_arg12 m ρ c)
theorem W5_arg13 (c : Dev nD) : W5 m ρ c (Proc.devRef .tc main_arg13) = m ((c.tc : Thread nD τ).loc main_arg13) :=
  (by host_keep hostOps2 : W5 m ρ c (Proc.devRef .tc main_arg13) = W4 m ρ c (Proc.devRef .tc main_arg13)).trans (W4_arg13 m ρ c)
theorem W5_arg14 (c : Dev nD) : W5 m ρ c (Proc.devRef .tc main_arg14) = m ((c.tc : Thread nD τ).loc main_arg14) :=
  (by host_keep hostOps2 : W5 m ρ c (Proc.devRef .tc main_arg14) = W4 m ρ c (Proc.devRef .tc main_arg14)).trans (W4_arg14 m ρ c)
theorem W6_arg5 (c : Dev nD) : W6 m ρ c (Proc.devRef .tc main_arg5) = m ((c.tc : Thread nD τ).loc main_arg5) :=
  (W6_of_ne m ρ c main_arg5 (by decide)).trans (W5_arg5 m ρ c)
theorem W6_arg6 (c : Dev nD) : W6 m ρ c (Proc.devRef .tc main_arg6) = m ((c.tc : Thread nD τ).loc main_arg6) :=
  (W6_of_ne m ρ c main_arg6 (by decide)).trans (W5_arg6 m ρ c)
theorem W6_arg7 (c : Dev nD) : W6 m ρ c (Proc.devRef .tc main_arg7) = m ((c.tc : Thread nD τ).loc main_arg7) :=
  (W6_of_ne m ρ c main_arg7 (by decide)).trans (W5_arg7 m ρ c)
theorem W6_arg8 (c : Dev nD) : W6 m ρ c (Proc.devRef .tc main_arg8) = m ((c.tc : Thread nD τ).loc main_arg8) :=
  (W6_of_ne m ρ c main_arg8 (by decide)).trans (W5_arg8 m ρ c)
theorem W6_arg9 (c : Dev nD) : W6 m ρ c (Proc.devRef .tc main_arg9) = m ((c.tc : Thread nD τ).loc main_arg9) :=
  (W6_of_ne m ρ c main_arg9 (by decide)).trans (W5_arg9 m ρ c)
theorem W6_arg10 (c : Dev nD) : W6 m ρ c (Proc.devRef .tc main_arg10) = m ((c.tc : Thread nD τ).loc main_arg10) :=
  (W6_of_ne m ρ c main_arg10 (by decide)).trans (W5_arg10 m ρ c)
theorem W6_arg11 (c : Dev nD) : W6 m ρ c (Proc.devRef .tc main_arg11) = m ((c.tc : Thread nD τ).loc main_arg11) :=
  (W6_of_ne m ρ c main_arg11 (by decide)).trans (W5_arg11 m ρ c)
theorem W6_arg12 (c : Dev nD) : W6 m ρ c (Proc.devRef .tc main_arg12) = m ((c.tc : Thread nD τ).loc main_arg12) :=
  (W6_of_ne m ρ c main_arg12 (by decide)).trans (W5_arg12 m ρ c)
theorem W6_arg13 (c : Dev nD) : W6 m ρ c (Proc.devRef .tc main_arg13) = m ((c.tc : Thread nD τ).loc main_arg13) :=
  (W6_of_ne m ρ c main_arg13 (by decide)).trans (W5_arg13 m ρ c)
theorem W6_arg14 (c : Dev nD) : W6 m ρ c (Proc.devRef .tc main_arg14) = m ((c.tc : Thread nD τ).loc main_arg14) :=
  (W6_of_ne m ρ c main_arg14 (by decide)).trans (W5_arg14 m ρ c)
theorem W7_arg5 (c : Dev nD) : W7 m ρ c (Proc.devRef .tc main_arg5) = m ((c.tc : Thread nD τ).loc main_arg5) :=
  (by host_keep hostOps3 : W7 m ρ c (Proc.devRef .tc main_arg5) = W6 m ρ c (Proc.devRef .tc main_arg5)).trans (W6_arg5 m ρ c)
theorem W7_arg6 (c : Dev nD) : W7 m ρ c (Proc.devRef .tc main_arg6) = m ((c.tc : Thread nD τ).loc main_arg6) :=
  (by host_keep hostOps3 : W7 m ρ c (Proc.devRef .tc main_arg6) = W6 m ρ c (Proc.devRef .tc main_arg6)).trans (W6_arg6 m ρ c)
theorem W8_arg5 (c : Dev nD) : W8 m ρ c (Proc.devRef .tc main_arg5) = m ((c.tc : Thread nD τ).loc main_arg5) :=
  (W8_of_ne m ρ c main_arg5 (by decide)).trans (W7_arg5 m ρ c)
theorem W8_arg6 (c : Dev nD) : W8 m ρ c (Proc.devRef .tc main_arg6) = m ((c.tc : Thread nD τ).loc main_arg6) :=
  (W8_of_ne m ρ c main_arg6 (by decide)).trans (W7_arg6 m ρ c)
theorem W9_arg5 (c : Dev nD) : W9 m ρ c (Proc.devRef .tc main_arg5) = m ((c.tc : Thread nD τ).loc main_arg5) :=
  (by host_keep hostOps4 : W9 m ρ c (Proc.devRef .tc main_arg5) = W8 m ρ c (Proc.devRef .tc main_arg5)).trans (W8_arg5 m ρ c)
theorem W9_arg6 (c : Dev nD) : W9 m ρ c (Proc.devRef .tc main_arg6) = m ((c.tc : Thread nD τ).loc main_arg6) :=
  (by host_keep hostOps4 : W9 m ρ c (Proc.devRef .tc main_arg6) = W8 m ρ c (Proc.devRef .tc main_arg6)).trans (W8_arg6 m ρ c)
theorem W10_arg5 (c : Dev nD) : W10 m ρ c (Proc.devRef .tc main_arg5) = m ((c.tc : Thread nD τ).loc main_arg5) :=
  (W10_of_ne m ρ c main_arg5 (by decide)).trans (W9_arg5 m ρ c)
theorem W10_arg6 (c : Dev nD) : W10 m ρ c (Proc.devRef .tc main_arg6) = m ((c.tc : Thread nD τ).loc main_arg6) :=
  (W10_of_ne m ρ c main_arg6 (by decide)).trans (W9_arg6 m ρ c)

/-! ## The first layer -/

/-- The edge arrays. -/
abbrev edges (c : Dev nD) : Cert.Model.Edges Ideal := ⟨(m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14))⟩

/-- Launch 0 leaves the first layer's user features. -/
theorem xu1 (c : Dev nD) : W2 m ρ c (Proc.devRef .tc main_v86)
    = Cert.Model.layerU (m ((c.tc : Thread nD τ).loc main_arg1)) (m ((c.tc : Thread nD τ).loc main_arg2)) (m ((c.tc : Thread nD τ).loc main_arg3)) (m ((c.tc : Thread nD τ).loc main_arg4)) (edges m c) := by
  refine (W2_arr m ρ c 6).trans ((Region0.final (V1 m ρ) c).trans ?_)
  have a0 : V1 m ρ c main_v37 = Cert.Model.aggUsers (m ((c.tc : Thread nD τ).loc main_arg1)) (m ((c.tc : Thread nD τ).loc main_arg9)) (m ((c.tc : Thread nD τ).loc main_arg10)) := HostRead.h0_v37 (W0 m ρ c)
  have a1 : V1 m ρ c main_v77 = Cert.Model.w1 (m ((c.tc : Thread nD τ).loc main_arg3)) := HostRead.h0_v77 (W0 m ρ c)
  have a2 : V1 m ρ c main_v84 = shapeCast _ (Cert.Model.b1 (m ((c.tc : Thread nD τ).loc main_arg4))) shapeCasts_S64_S1x64 := HostRead.h0_v84 (W0 m ρ c)
  have a3 : V1 m ρ c main_v75 = Cert.Model.aggUsers (m ((c.tc : Thread nD τ).loc main_arg2)) (m ((c.tc : Thread nD τ).loc main_arg13)) (m ((c.tc : Thread nD τ).loc main_arg14)) := HostRead.h0_v75 (W0 m ρ c)
  have a4 : V1 m ρ c main_v81 = Cert.Model.w3 (m ((c.tc : Thread nD τ).loc main_arg3)) := HostRead.h0_v81 (W0 m ρ c)
  have a5 : V1 m ρ c main_v85 = shapeCast _ (Cert.Model.b3 (m ((c.tc : Thread nD τ).loc main_arg4))) shapeCasts_S64_S1x64 := HostRead.h0_v85 (W0 m ρ c)
  rw [a0, a1, a2, a3, a4, a5]
  unfold lin2
  rw [lin_users, lin_users]
  rfl

/-- Launch 1 leaves the first layer's features of the first kind of items. -/
theorem xa1 (c : Dev nD) : W4 m ρ c (Proc.devRef .tc main_v92)
    = Cert.Model.layerA (m ((c.tc : Thread nD τ).loc main_arg0)) (m ((c.tc : Thread nD τ).loc main_arg3)) (m ((c.tc : Thread nD τ).loc main_arg4)) (edges m c) := by
  refine (W4_arr m ρ c 3).trans ((Region1.final (V3 m ρ) c).trans ?_)
  have a0 : V3 m ρ c main_v18 = Cert.Model.aggItems (m ((c.tc : Thread nD τ).loc main_arg0)) (m ((c.tc : Thread nD τ).loc main_arg7)) (m ((c.tc : Thread nD τ).loc main_arg8)) :=
    ((by host_keep hostOps1 : W3 m ρ c (Proc.devRef .tc main_v18) = W2 m ρ c (Proc.devRef .tc main_v18)).trans (W2_of_ne m ρ c main_v18 (by decide))).trans (HostRead.h0_v18 (W0 m ρ c))
  have a1 : V3 m ρ c main_v88 = Cert.Model.w0 (m ((c.tc : Thread nD τ).loc main_arg3)) := (HostRead.h1_v88 (W2 m ρ c)).trans (by rw [W2_arg3])
  have a2 : V3 m ρ c main_v91 = shapeCast _ (Cert.Model.b0 (m ((c.tc : Thread nD τ).loc main_arg4))) shapeCasts_S64_S1x64 := (HostRead.h1_v91 (W2 m ρ c)).trans (by rw [W2_arg4])
  rw [a0, a1, a2, lin_items]
  rfl

/-- Launch 2 leaves the first layer's features of the second kind of items. -/
theorem xb1 (c : Dev nD) : W6 m ρ c (Proc.devRef .tc main_v98)
    = Cert.Model.layerB (m ((c.tc : Thread nD τ).loc main_arg0)) (m ((c.tc : Thread nD τ).loc main_arg3)) (m ((c.tc : Thread nD τ).loc main_arg4)) (edges m c) := by
  refine (W6_arr m ρ c 3).trans ((Region2.final (V5 m ρ) c).trans ?_)
  have a0 : V5 m ρ c main_v56 = Cert.Model.aggItems (m ((c.tc : Thread nD τ).loc main_arg0)) (m ((c.tc : Thread nD τ).loc main_arg11)) (m ((c.tc : Thread nD τ).loc main_arg12)) :=
    ((((by host_keep hostOps2 : W5 m ρ c (Proc.devRef .tc main_v56) = W4 m ρ c (Proc.devRef .tc main_v56)).trans (W4_of_ne m ρ c main_v56 (by decide))).trans (by host_keep hostOps1 : W3 m ρ c (Proc.devRef .tc main_v56) = W2 m ρ c (Proc.devRef .tc main_v56))).trans (W2_of_ne m ρ c main_v56 (by decide))).trans (HostRead.h0_v56 (W0 m ρ c))
  have a1 : V5 m ρ c main_v94 = Cert.Model.w2 (m ((c.tc : Thread nD τ).loc main_arg3)) := (HostRead.h2_v94 (W4 m ρ c)).trans (by rw [W4_arg3])
  have a2 : V5 m ρ c main_v97 = shapeCast _ (Cert.Model.b2 (m ((c.tc : Thread nD τ).loc main_arg4))) shapeCasts_S64_S1x64 := (HostRead.h2_v97 (W4 m ρ c)).trans (by rw [W4_arg4])
  rw [a0, a1, a2, lin_items]
  rfl

/-! ## The first layer's results where the fourth stretch reads them -/

theorem W6_v86 (c : Dev nD) : W6 m ρ c (Proc.devRef .tc main_v86) = Cert.Model.layerU (m ((c.tc : Thread nD τ).loc main_arg1)) (m ((c.tc : Thread nD τ).loc main_arg2)) (m ((c.tc : Thread nD τ).loc main_arg3)) (m ((c.tc : Thread nD τ).loc main_arg4)) (edges m c) :=
  ((((W6_of_ne m ρ c main_v86 (by decide)).trans (by host_keep hostOps2 : W5 m ρ c (Proc.devRef .tc main_v86) = W4 m ρ c (Proc.devRef .tc main_v86))).trans (W4_of_ne m ρ c main_v86 (by decide))).trans (by host_keep hostOps1 : W3 m ρ c (Proc.devRef .tc main_v86) = W2 m ρ c (Proc.devRef .tc main_v86))).trans (xu1 m ρ c)

theorem W6_v92 (c : Dev nD) : W6 m ρ c (Proc.devRef .tc main_v92) = Cert.Model.layerA (m ((c.tc : Thread nD τ).loc main_arg0)) (m ((c.tc : Thread nD τ).loc main_arg3)) (m ((c.tc : Thread nD τ).loc main_arg4)) (edges m c) :=
  ((W6_of_ne m ρ c main_v92 (by decide)).trans (by host_keep hostOps2 : W5 m ρ c (Proc.devRef .tc main_v92) = W4 m ρ c (Proc.devRef .tc main_v92))).trans (xa1 m ρ c)

/-! ## The second layer -/

/-- Launch 3 leaves the second layer's user features. -/
theorem xu2 (c : Dev nD) : W8 m ρ c (Proc.devRef .tc main_v185)
    = Cert.Model.outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (edges m c) := by
  refine (W8_arr m ρ c 6).trans ((Region3.final (V7 m ρ) c).trans ?_)
  have a0 : V7 m ρ c main_v136 = Cert.Model.aggUsers (Cert.Model.layerA (m ((c.tc : Thread nD τ).loc main_arg0)) (m ((c.tc : Thread nD τ).loc main_arg3)) (m ((c.tc : Thread nD τ).loc main_arg4)) (edges m c)) (m ((c.tc : Thread nD τ).loc main_arg9)) (m ((c.tc : Thread nD τ).loc main_arg10)) :=
    (HostRead.h3_v136 (W6 m ρ c)).trans (by rw [W6_v92, W6_arg9, W6_arg10])
  have a1 : V7 m ρ c main_v176 = Cert.Model.w1 (m ((c.tc : Thread nD τ).loc main_arg5)) := (HostRead.h3_v176 (W6 m ρ c)).trans (by rw [W6_arg5])
  have a2 : V7 m ρ c main_v183 = shapeCast _ (Cert.Model.b1 (m ((c.tc : Thread nD τ).loc main_arg6))) shapeCasts_S64_S1x64 := (HostRead.h3_v183 (W6 m ρ c)).trans (by rw [W6_arg6])
  have a3 : V7 m ρ c main_v174 = Cert.Model.aggUsers (Cert.Model.layerB (m ((c.tc : Thread nD τ).loc main_arg0)) (m ((c.tc : Thread nD τ).loc main_arg3)) (m ((c.tc : Thread nD τ).loc main_arg4)) (edges m c)) (m ((c.tc : Thread nD τ).loc main_arg13)) (m ((c.tc : Thread nD τ).loc main_arg14)) :=
    (HostRead.h3_v174 (W6 m ρ c)).trans (by rw [xb1, W6_arg13, W6_arg14])
  have a4 : V7 m ρ c main_v180 = Cert.Model.w3 (m ((c.tc : Thread nD τ).loc main_arg5)) := (HostRead.h3_v180 (W6 m ρ c)).trans (by rw [W6_arg5])
  have a5 : V7 m ρ c main_v184 = shapeCast _ (Cert.Model.b3 (m ((c.tc : Thread nD τ).loc main_arg6))) shapeCasts_S64_S1x64 := (HostRead.h3_v184 (W6 m ρ c)).trans (by rw [W6_arg6])
  rw [a0, a1, a2, a3, a4, a5]
  unfold lin2
  rw [lin_users, lin_users]
  rfl

/-- Launch 4 leaves the second layer's features of the first kind of items. -/
theorem xa2 (c : Dev nD) : W10 m ρ c (Proc.devRef .tc main_v191)
    = Cert.Model.outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (edges m c) := by
  refine (W10_arr m ρ c 3).trans ((Region4.final (V9 m ρ) c).trans ?_)
  have a0 : V9 m ρ c main_v117 = Cert.Model.aggItems (Cert.Model.layerU (m ((c.tc : Thread nD τ).loc main_arg1)) (m ((c.tc : Thread nD τ).loc main_arg2)) (m ((c.tc : Thread nD τ).loc main_arg3)) (m ((c.tc : Thread nD τ).loc main_arg4)) (edges m c)) (m ((c.tc : Thread nD τ).loc main_arg7)) (m ((c.tc : Thread nD τ).loc main_arg8)) :=
    ((by host_keep hostOps4 : W9 m ρ c (Proc.devRef .tc main_v117) = W8 m ρ c (Proc.devRef .tc main_v117)).trans (W8_of_ne m ρ c main_v117 (by decide))).trans ((HostRead.h3_v117 (W6 m ρ c)).trans (by rw [W6_v86, W6_arg7, W6_arg8]))
  have a1 : V9 m ρ c main_v187 = Cert.Model.w0 (m ((c.tc : Thread nD τ).loc main_arg5)) := (HostRead.h4_v187 (W8 m ρ c)).trans (by rw [W8_arg5])
  have a2 : V9 m ρ c main_v190 = shapeCast _ (Cert.Model.b0 (m ((c.tc : Thread nD τ).loc main_arg6))) shapeCasts_S64_S1x64 := (HostRead.h4_v190 (W8 m ρ c)).trans (by rw [W8_arg6])
  rw [a0, a1, a2, lin_items]
  rfl

/-- Launch 5 leaves the second layer's features of the second kind of items. -/
theorem xb2 (c : Dev nD) : W12 m ρ c (Proc.devRef .tc main_v197)
    = Cert.Model.outB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (edges m c) := by
  refine (W12_arr m ρ c 3).trans ((Region5.final (V11 m ρ) c).trans ?_)
  have a0 : V11 m ρ c main_v155 = Cert.Model.aggItems (Cert.Model.layerU (m ((c.tc : Thread nD τ).loc main_arg1)) (m ((c.tc : Thread nD τ).loc main_arg2)) (m ((c.tc : Thread nD τ).loc main_arg3)) (m ((c.tc : Thread nD τ).loc main_arg4)) (edges m c)) (m ((c.tc : Thread nD τ).loc main_arg11)) (m ((c.tc : Thread nD τ).loc main_arg12)) :=
    ((((by host_keep hostOps5 : W11 m ρ c (Proc.devRef .tc main_v155) = W10 m ρ c (Proc.devRef .tc main_v155)).trans (W10_of_ne m ρ c main_v155 (by decide))).trans (by host_keep hostOps4 : W9 m ρ c (Proc.devRef .tc main_v155) = W8 m ρ c (Proc.devRef .tc main_v155))).trans (W8_of_ne m ρ c main_v155 (by decide))).trans ((HostRead.h3_v155 (W6 m ρ c)).trans (by rw [W6_v86, W6_arg11, W6_arg12]))
  have a1 : V11 m ρ c main_v193 = Cert.Model.w2 (m ((c.tc : Thread nD τ).loc main_arg5)) := (HostRead.h5_v193 (W10 m ρ c)).trans (by rw [W10_arg5])
  have a2 : V11 m ρ c main_v196 = shapeCast _ (Cert.Model.b2 (m ((c.tc : Thread nD τ).loc main_arg6))) shapeCasts_S64_S1x64 := (HostRead.h5_v196 (W10 m ρ c)).trans (by rw [W10_arg6])
  rw [a0, a1, a2, lin_items]
  rfl

/-! ## The three results at the last boundary -/

theorem last_v185 (c : Dev nD) : W12 m ρ c (Proc.devRef .tc main_v185)
    = Cert.Model.outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (edges m c) :=
  ((((W12_of_ne m ρ c main_v185 (by decide)).trans (by host_keep hostOps5 : W11 m ρ c (Proc.devRef .tc main_v185) = W10 m ρ c (Proc.devRef .tc main_v185))).trans (W10_of_ne m ρ c main_v185 (by decide))).trans (by host_keep hostOps4 : W9 m ρ c (Proc.devRef .tc main_v185) = W8 m ρ c (Proc.devRef .tc main_v185))).trans (xu2 m ρ c)

theorem last_v191 (c : Dev nD) : W12 m ρ c (Proc.devRef .tc main_v191)
    = Cert.Model.outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (edges m c) :=
  ((W12_of_ne m ρ c main_v191 (by decide)).trans (by host_keep hostOps5 : W11 m ρ c (Proc.devRef .tc main_v191) = W10 m ρ c (Proc.devRef .tc main_v191))).trans (xa2 m ρ c)

end Cert.KernelIdeal.Fold

end
-- ==== Proof.RefModel.lean ====
/-
  The reference's run, in the model's words: every weakly fair execution terminates with its three results at the
  network's three functions of the launch contents of the fifteen arguments, and the arguments unchanged.  The run's own
  result terms are the compositions of the program's host operations; the model's functions unfold to the same compositions.
-/
import proofs.«154951_j87230785782112_1_alg».proof.Proof.Gen.ReferenceIdeal.Run
import proofs.«154951_j87230785782112_1_alg».proof.Proof.Model

set_option maxRecDepth 65536

noncomputable section

namespace Cert.ReferenceIdeal.RefModel

open Cert.ReferenceIdeal Cert.ReferenceIdeal.Gen Cert.ReferenceIdeal.Value Idealize.ShloMosaic Idealize.ShloMosaic.TcCoe Idealize.SL.Sem
  Idealize.ShloMosaic.StableHlo

variable {F : FTy → Type} [FloatOps F]

set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v217) = Cert.Model.outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨(m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14))⟩
      ∧ r.2.mem ((c.tc : Thread nD τ).loc main_v135) = Cert.Model.outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨(m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14))⟩
      ∧ r.2.mem ((c.tc : Thread nD τ).loc main_v189) = Cert.Model.outB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨(m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14))⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1.trans (by unfold res_main_v217; rfl),
      (h c).2.1.trans (by unfold res_main_v108; rfl),
      (h c).2.2.1.trans (by unfold res_main_v108; rfl),
      (h c).2.2.2⟩)
    (Cert.ReferenceIdeal.Value.run (F := F) m ρ)

end Cert.ReferenceIdeal.RefModel

end
-- ==== Proof.lean ====
/-
  The certificate: the kernel and its reference compute the same network on the extended reals.

  Both programs run the same host operations for the message passing of the four relations (a row gather, a row
  scatter-add, a division by the in-degree), and differ only in the linear layer  H W + b  that follows: the reference
  applies the host's matrix product and adds the bias along the rows; the kernel runs the layer in launches tiled over
  blocks of 10000 rows, with the operands narrowed to bf16 (the identity on ideal values) and multiplied into a zero
  accumulator, the users' two relations added in one launch.  Entry (p, q) of either spelling is
  sum over k < 64 of H(p, k) W(k, q), plus b(q): the same terms in the same grouping, so no law of arithmetic that could
  fail at an infinity is needed and the precondition is not opened.  Row p of a layer depends on row p of H only, so the
  blocks the launches write are the rows of the layer of the whole arrays.  The second layer repeats the first on the
  first's results.  Each program's three results are therefore the model's three functions (Proof/Model.lean) of the
  fifteen arguments; the arguments agree, so the results are equal.
  The idealization rewrote nothing, so its conjunct is trivial; the three frames are the programs' runs with the results
  dropped.
-/
import proofs.«154951_j87230785782112_1_alg».proof.Defs
import proofs.«154951_j87230785782112_1_alg».proof.Proof.Gen.Kernel
import proofs.«154951_j87230785782112_1_alg».proof.Proof.Gen.Kernel.Skeleton
import proofs.«154951_j87230785782112_1_alg».proof.Proof.Gen.Kernel.Launch
import proofs.«154951_j87230785782112_1_alg».proof.Proof.Gen.Kernel.Points
import proofs.«154951_j87230785782112_1_alg».proof.Proof.Gen.Kernel.Frame
import proofs.«154951_j87230785782112_1_alg».proof.Proof.Gen.KernelIdeal
import proofs.«154951_j87230785782112_1_alg».proof.Proof.Gen.KernelIdeal.Skeleton
import proofs.«154951_j87230785782112_1_alg».proof.Proof.Gen.KernelIdeal.Launch
import proofs.«154951_j87230785782112_1_alg».proof.Proof.Gen.KernelIdeal.Points
import proofs.«154951_j87230785782112_1_alg».proof.Proof.Gen.KernelIdeal.Frame
import proofs.«154951_j87230785782112_1_alg».proof.Proof.Gen.ReferenceIdeal
import proofs.«154951_j87230785782112_1_alg».proof.Proof.Gen.ReferenceIdeal.Run
import proofs.«154951_j87230785782112_1_alg».proof.Proof.Gen.Pre_finite_inputs
import proofs.«154951_j87230785782112_1_alg».proof.Proof.KRun
import proofs.«154951_j87230785782112_1_alg».proof.Proof.KFold
import proofs.«154951_j87230785782112_1_alg».proof.Proof.RefModel
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.RefModel.run (F := Ideal) m ρ)

/-- Both programs end with the network's three functions of the arguments. -/
theorem algebraic : Cert.algebraic_KernelIdeal_ReferenceIdeal := by
  intro m ρ m' ρ' _ hagree
  refine ⟨fun c => Cert.Model.outU (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) ⟨(m ((c.tc : Thread Cert.KernelIdeal.nD Cert.KernelIdeal.τ).loc Cert.KernelIdeal.main_arg7)), (m ((c.tc : Thread Cert.KernelIdeal.nD Cert.KernelIdeal.τ).loc Cert.KernelIdeal.main_arg8)), (m ((c.tc : Thread Cert.KernelIdeal.nD Cert.KernelIdeal.τ).loc Cert.KernelIdeal.main_arg9)), (m ((c.tc : Thread Cert.KernelIdeal.nD Cert.KernelIdeal.τ).loc Cert.KernelIdeal.main_arg10)), (m ((c.tc : Thread Cert.KernelIdeal.nD Cert.KernelIdeal.τ).loc Cert.KernelIdeal.main_arg11)), (m ((c.tc : Thread Cert.KernelIdeal.nD Cert.KernelIdeal.τ).loc Cert.KernelIdeal.main_arg12)), (m ((c.tc : Thread Cert.KernelIdeal.nD Cert.KernelIdeal.τ).loc Cert.KernelIdeal.main_arg13)), (m ((c.tc : Thread Cert.KernelIdeal.nD Cert.KernelIdeal.τ).loc Cert.KernelIdeal.main_arg14))⟩,
    fun c => Cert.Model.outA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) ⟨(m ((c.tc : Thread Cert.KernelIdeal.nD Cert.KernelIdeal.τ).loc Cert.KernelIdeal.main_arg7)), (m ((c.tc : Thread Cert.KernelIdeal.nD Cert.KernelIdeal.τ).loc Cert.KernelIdeal.main_arg8)), (m ((c.tc : Thread Cert.KernelIdeal.nD Cert.KernelIdeal.τ).loc Cert.KernelIdeal.main_arg9)), (m ((c.tc : Thread Cert.KernelIdeal.nD Cert.KernelIdeal.τ).loc Cert.KernelIdeal.main_arg10)), (m ((c.tc : Thread Cert.KernelIdeal.nD Cert.KernelIdeal.τ).loc Cert.KernelIdeal.main_arg11)), (m ((c.tc : Thread Cert.KernelIdeal.nD Cert.KernelIdeal.τ).loc Cert.KernelIdeal.main_arg12)), (m ((c.tc : Thread Cert.KernelIdeal.nD Cert.KernelIdeal.τ).loc Cert.KernelIdeal.main_arg13)), (m ((c.tc : Thread Cert.KernelIdeal.nD Cert.KernelIdeal.τ).loc Cert.KernelIdeal.main_arg14))⟩,
    fun c => Cert.Model.outB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) ⟨(m ((c.tc : Thread Cert.KernelIdeal.nD Cert.KernelIdeal.τ).loc Cert.KernelIdeal.main_arg7)), (m ((c.tc : Thread Cert.KernelIdeal.nD Cert.KernelIdeal.τ).loc Cert.KernelIdeal.main_arg8)), (m ((c.tc : Thread Cert.KernelIdeal.nD Cert.KernelIdeal.τ).loc Cert.KernelIdeal.main_arg9)), (m ((c.tc : Thread Cert.KernelIdeal.nD Cert.KernelIdeal.τ).loc Cert.KernelIdeal.main_arg10)), (m ((c.tc : Thread Cert.KernelIdeal.nD Cert.KernelIdeal.τ).loc Cert.KernelIdeal.main_arg11)), (m ((c.tc : Thread Cert.KernelIdeal.nD Cert.KernelIdeal.τ).loc Cert.KernelIdeal.main_arg12)), (m ((c.tc : Thread Cert.KernelIdeal.nD Cert.KernelIdeal.τ).loc Cert.KernelIdeal.main_arg13)), (m ((c.tc : Thread Cert.KernelIdeal.nD Cert.KernelIdeal.τ).loc Cert.KernelIdeal.main_arg14))⟩, ?_, ?_⟩
  · exact (θ_run Cert.KernelIdeal.defs _ _).mono (fun r h c =>
      ⟨(h c Cert.KernelIdeal.main_v185 (by decide)).trans (Cert.KernelIdeal.Fold.last_v185 m ρ c),
       (h c Cert.KernelIdeal.main_v191 (by decide)).trans (Cert.KernelIdeal.Fold.last_v191 m ρ c),
       (h c Cert.KernelIdeal.main_v197 (by decide)).trans (Cert.KernelIdeal.Fold.xb2 m ρ c),
       (h c Cert.KernelIdeal.main_arg0 (by decide)).trans (Cert.KernelIdeal.Gen.W12_main_arg0 m ρ c),
       (h c Cert.KernelIdeal.main_arg1 (by decide)).trans (Cert.KernelIdeal.Gen.W12_main_arg1 m ρ c),
       (h c Cert.KernelIdeal.main_arg2 (by decide)).trans (Cert.KernelIdeal.Gen.W12_main_arg2 m ρ c),
       (h c Cert.KernelIdeal.main_arg3 (by decide)).trans (Cert.KernelIdeal.Gen.W12_main_arg3 m ρ c),
       (h c Cert.KernelIdeal.main_arg4 (by decide)).trans (Cert.KernelIdeal.Gen.W12_main_arg4 m ρ c),
       (h c Cert.KernelIdeal.main_arg5 (by decide)).trans (Cert.KernelIdeal.Gen.W12_main_arg5 m ρ c),
       (h c Cert.KernelIdeal.main_arg6 (by decide)).trans (Cert.KernelIdeal.Gen.W12_main_arg6 m ρ c),
       (h c Cert.KernelIdeal.main_arg7 (by decide)).trans (Cert.KernelIdeal.Gen.W12_main_arg7 m ρ c),
       (h c Cert.KernelIdeal.main_arg8 (by decide)).trans (Cert.KernelIdeal.Gen.W12_main_arg8 m ρ c),
       (h c Cert.KernelIdeal.main_arg9 (by decide)).trans (Cert.KernelIdeal.Gen.W12_main_arg9 m ρ c),
       (h c Cert.KernelIdeal.main_arg10 (by decide)).trans (Cert.KernelIdeal.Gen.W12_main_arg10 m ρ c),
       (h c Cert.KernelIdeal.main_arg11 (by decide)).trans (Cert.KernelIdeal.Gen.W12_main_arg11 m ρ c),
       (h c Cert.KernelIdeal.main_arg12 (by decide)).trans (Cert.KernelIdeal.Gen.W12_main_arg12 m ρ c),
       (h c Cert.KernelIdeal.main_arg13 (by decide)).trans (Cert.KernelIdeal.Gen.W12_main_arg13 m ρ c),
       (h c Cert.KernelIdeal.main_arg14 (by decide)).trans (Cert.KernelIdeal.Gen.W12_main_arg14 m ρ c)⟩)
      (Cert.KernelIdeal.ValueRun.run_last m ρ)
  · refine (θ_run Cert.ReferenceIdeal.defs _ _).mono (fun r h c => ?_) (Cert.ReferenceIdeal.RefModel.run (F := Ideal) m' ρ')
    obtain ⟨g0, g1, g2, g3, g4, g5, g6, g7, g8, g9, g10, g11, g12, g13, g14⟩ := hagree c
    obtain ⟨q0, q1, q2, qargs⟩ := h c
    refine ⟨q0.trans ?_, q1.trans ?_, q2.trans ?_, qargs⟩ <;>
      rw [g0, g1, g2, g3, g4, g5, g6, g7, g8, g9, g10, g11, g12, g13, g14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
